-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x384 : Shape := ⟨2, ![50000, 384]⟩
abbrev S2x1600000 : Shape := ⟨2, ![2, 1600000]⟩
abbrev S384x128 : Shape := ⟨2, ![384, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x384 : S_.BroadcastsInDim S50000x384 (![] : Fin 0 → Fin S50000x384.rank)
  reducesTo_S50000x384_S_d0_1 : S50000x384.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x384 .f32) (main_arg1 : IVec S2x1600000 32) (main_arg2 : FVec F S384x128 .f32) (main_arg3 : FVec F S128 .f32) (main_arg4 : FVec F S128x64 .f32) (main_arg5 : FVec F S64 .f32) : IVec S_ 1 :=
  let main_v0 : FVec F S50000x384 .f32 := Host.absf main_arg0
  let main_cst : FVec F S_ .f32 := constant S_ .f32 0x7F800000#32
  let main_v1 : FVec F S50000x384 .f32 := broadcastInDim S50000x384 ![] bcast_S_S50000x384 main_cst
  let main_v2 : IVec S50000x384 1 := cmpf .olt main_v0 main_v1
  let main_c : IVec S_ 1 := constantI S_ 1 1#1
  let main_v3 : IVec S_ 1 := (fun x v => Host.reduce IntOp.andi x v reducesTo_S50000x384_S_d0_1 h_S_) main_v2 main_c
  let main_v4 : FVec F S384x128 .f32 := Host.absf main_arg2
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x384 : Shape := ⟨2, ![50000, 384]⟩
abbrev S2x1600000 : Shape := ⟨2, ![2, 1600000]⟩
abbrev S384x128 : Shape := ⟨2, ![384, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x384 : Shape := ⟨2, ![5000, 384]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x384, .f32⟩
  | .hbm, ⟨1, _⟩ => ⟨S2x1600000, .i32⟩
  | .hbm, ⟨2, _⟩ => ⟨S384x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x64, .f32⟩
  | .hbm, ⟨79, _⟩ => ⟨S1650000x1, .f32⟩
  | .hbm, ⟨80, _⟩ => ⟨S1650000x64, .f32⟩
  | .hbm, ⟨81, _⟩ => ⟨S1650000x64, .f32⟩
  | .hbm, ⟨82, _⟩ => ⟨S_, .f32⟩
  | .hbm, ⟨83, _⟩ => ⟨S50000x64, .f32⟩
  | .hbm, ⟨84, _⟩ => ⟨S1650000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S5000x384, .f32⟩
  | .local _ .vmem, ⟨1, _⟩ => ⟨S5000x384, .f32⟩
  | .local _ .vmem, ⟨2, _⟩ => ⟨S384x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x384_S5000x384_0_0 : ∀ a, (![0, 0] : Fin 2 → Nat) a + S5000x384.size a ≤ S5000x384.size a
  h_S5000x384 : 0 < S5000x384.numel
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x384_S384x128_S5000x128_1_0_0_1_n_n_wf : DotDims.WF S5000x384 S384x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S50000x384.size a
  hwx0_0 : ∀ i : grid0.Coords, EltTy.bits .f32 = 32 ∨ (Rect.block (s := S50000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x384 : Shape := ⟨2, ![50000, 384]⟩
abbrev S2x1600000 : Shape := ⟨2, ![2, 1600000]⟩
abbrev S384x128 : Shape := ⟨2, ![384, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x384, .f32⟩
  | .hbm, ⟨1, _⟩ => ⟨S2x1600000, .i32⟩
  | .hbm, ⟨2, _⟩ => ⟨S384x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000, .i32⟩
  | .hbm, ⟨70, _⟩ => ⟨S1650000, .i32⟩
  | .hbm, ⟨71, _⟩ => ⟨S1650000, .i32⟩
  | .hbm, ⟨72, _⟩ => ⟨S_, .f32⟩
  | .hbm, ⟨73, _⟩ => ⟨S1650000, .f32⟩
  | .hbm, ⟨74, _⟩ => ⟨S_, .f32⟩
  | .hbm, ⟨75, _⟩ => ⟨S50000, .f32⟩
  | .hbm, ⟨76, _⟩ => ⟨S1650000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S1650000, .i32⟩
  | .hbm, ⟨88, _⟩ => ⟨S1650000, .i1⟩
  | .hbm, ⟨89, _⟩ => ⟨S_, .i32⟩
  | .hbm, ⟨90, _⟩ => ⟨S1650000, .i32⟩
  | .hbm, ⟨91, _⟩ => ⟨S1650000, .i32⟩
  | .hbm, ⟨92, _⟩ => ⟨S1650000, .i32⟩
  | .hbm, ⟨93, _⟩ => ⟨S1650000x1, .i32⟩
  | .hbm, ⟨94, _⟩ => ⟨S1650000, .f32⟩
  | .hbm, ⟨95, _⟩ => ⟨S_, .i32⟩
  | .hbm, ⟨96, _⟩ => ⟨S1650000, .i32⟩
  | .hbm, ⟨97, _⟩ => ⟨S1650000, .i1⟩
  | .hbm, ⟨98, _⟩ => ⟨S_, .i32⟩
  | .hbm, ⟨99, _⟩ => ⟨S1650000, .i32⟩
  | .hbm, ⟨100, _⟩ => ⟨S1650000, .i32⟩
  | .hbm, ⟨101, _⟩ => ⟨S1650000, .i32⟩
  | .hbm, ⟨102, _⟩ => ⟨S1650000x1, .i32⟩
  | .hbm, ⟨103, _⟩ => ⟨S1650000, .f32⟩
  | .hbm, ⟨104, _⟩ => ⟨S1650000, .f32⟩
  | .hbm, ⟨105, _⟩ => ⟨S50000x64, .f32⟩
  | .hbm, ⟨106, _⟩ => ⟨S_, .i32⟩
  | .hbm, ⟨107, _⟩ => ⟨S1650000, .i32⟩
  | .hbm, ⟨108, _⟩ => ⟨S1650000, .i1⟩
  | .hbm, ⟨109, _⟩ => ⟨S_, .i32⟩
  | .hbm, ⟨110, _⟩ => ⟨S1650000, .i32⟩
  | .hbm, ⟨111, _⟩ => ⟨S1650000, .i32⟩
  | .hbm, ⟨112, _⟩ => ⟨S1650000, .i32⟩
  | .hbm, ⟨113, _⟩ => ⟨S1650000x1, .i32⟩
  | .hbm, ⟨114, _⟩ => ⟨S1650000x64, .f32⟩
  | .hbm, ⟨115, _⟩ => ⟨S1650000x1, .f32⟩
  | .hbm, ⟨116, _⟩ => ⟨S1650000x64, .f32⟩
  | .hbm, ⟨117, _⟩ => ⟨S1650000x64, .f32⟩
  | .hbm, ⟨118, _⟩ => ⟨S_, .f32⟩
  | .hbm, ⟨119, _⟩ => ⟨S50000x64, .f32⟩
  | .hbm, ⟨120, _⟩ => ⟨S1650000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x384_S384x128_S50000x128_1_0_0_1_n_n_wf : DotDims.WF S50000x384 S384x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.Net.lean ====
/-
  The function both programs compute, as pure operations on whole arrays: a two-layer graph
  convolution over an edge list `e : i32[2, E]` (row 0 the source node of each edge, row 1 its
  target) on `N = 50000` nodes, `E = 1600000` edges.

  * Self loops: the source and target words are extended by `0, 1, …, N - 1`, giving `E + N` words each.
  * The degree of a node is the number of extended target words equal to it (a scatter-add of ones);
    `invSqrtDeg` is `deg ^ (-1/2)` where the degree is positive and `0` elsewhere; the weight of an
    extended edge is `invSqrtDeg (source) * invSqrtDeg (target)` (`edgeNorm invSqrtDeg`).
  * A layer takes the node features `h = X · W` (the matrix product is a parameter here: the two
    programs compute it differently), gathers the row of `h` at each extended source word, scales it
    by the edge's weight, adds it into the row of the extended target word, and adds the bias; the
    first layer is followed by `max (·, 0)`.

  Everything is stated for any float instance; nothing here is evaluated.
-/
import proofs.«114819_j67396626809139_1_alg».proof.ReferenceIdeal
import Idealize.ShloMosaic.PureOps.Ideal

noncomputable section

namespace Cert.Gcn

open Idealize.ShloMosaic Cert.ReferenceIdeal

variable {F : FTy → Type} [FloatOps F] [Facts]
open Facts₀ Facts

/-- Row 0 of the edge list: the source node of each edge. -/
def edgeRow0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the target node of each edge. -/
def edgeRow1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- `E` node words followed by the self loops `0, 1, …, N - 1`. -/
def withLoops (a : (⟨S1600000, .i32⟩ : BufTy).Contents (Elt F)) : (⟨S1650000, .i32⟩ : BufTy).Contents (Elt F) :=
  concatenate S1650000 0 [⟨S1600000, a⟩, ⟨S50000, (iotaInDim S50000 32 0)⟩] concatenates_S1600000_S50000_S1650000_d0

/-- The source words of the edges, then the self loops. -/
def srcWords (e : (⟨S2x1600000, .i32⟩ : BufTy).Contents (Elt F)) : (⟨S1650000, .i32⟩ : BufTy).Contents (Elt F) :=
  withLoops (F := F) (edgeRow0 (F := F) e)

/-- The target words of the edges, then the self loops. -/
def dstWords (e : (⟨S2x1600000, .i32⟩ : BufTy).Contents (Elt F)) : (⟨S1650000, .i32⟩ : BufTy).Contents (Elt F) :=
  withLoops (F := F) (edgeRow1 (F := F) e)

/-- A vector of index words as a column. -/
def col (d : (⟨S1650000, .i32⟩ : BufTy).Contents (Elt F)) : (⟨S1650000x1, .i32⟩ : BufTy).Contents (Elt F) :=
  broadcastInDim S1650000x1 ![0] bcast_S1650000_S1650000x1_0 d

/-- A vector of index words as a column, a negative word first moved up by `N` (indexing from the end). -/
def wrapCol (s : (⟨S1650000, .i32⟩ : BufTy).Contents (Elt F)) : (⟨S1650000x1, .i32⟩ : BufTy).Contents (Elt F) :=
  broadcastInDim S1650000x1 ![0] bcast_S1650000_S1650000x1_0
    (select (cmpi .slt s (broadcastInDim S1650000 ![] bcast_S_S1650000 (constantI S_ 32 0#32)))
      (addi s (broadcastInDim S1650000 ![] bcast_S_S1650000 (constantI S_ 32 50000#32))) s)

/-- The degree of each node: one for every extended target word that names it. -/
def degree (d : (⟨S1650000, .i32⟩ : BufTy).Contents (Elt F)) : (⟨S50000, .f32⟩ : BufTy).Contents (Elt F) :=
  Host.scatterAdd scatter_S50000_S1650000x1_S1650000_n_0_0_1
    (broadcastInDim S50000 ![] bcast_S_S50000 (constant S_ .f32 0x00000000#32)) (col (F := F) d)
    (broadcastInDim S1650000 ![] bcast_S_S1650000 (constant S_ .f32 0x3F800000#32))

/-- `deg ^ (-1/2)` where the degree is positive, `0` elsewhere. -/
def invSqrtDeg (d : (⟨S1650000, .i32⟩ : BufTy).Contents (Elt F)) : (⟨S50000, .f32⟩ : BufTy).Contents (Elt F) :=
  select (cmpf (F := F) .ogt (degree (F := F) d) (broadcastInDim S50000 ![] bcast_S_S50000 (constant S_ .f32 0x00000000#32)))
    (Host.rsqrt (degree (F := F) d))
    (broadcastInDim S50000 ![] bcast_S_S50000 (constant S_ .f32 0x00000000#32))

/-- The weight of each extended edge from a per-node factor `v` (`invSqrtDeg` below): `v` at its source times
    `v` at its target. -/
def edgeNorm (v : (⟨S50000, .f32⟩ : BufTy).Contents (Elt F)) (s d : (⟨S1650000, .i32⟩ : BufTy).Contents (Elt F)) :
    (⟨S1650000, .f32⟩ : BufTy).Contents (Elt F) :=
  mulf (Host.gather gather_S50000_S1650000x1_S1650000_n_0_n_n_0_1_1 v (wrapCol (F := F) s))
    (Host.gather gather_S50000_S1650000x1_S1650000_n_0_n_n_0_1_1 v (wrapCol (F := F) d))

/-- The first layer after its matrix product `h` (`[N, 128]`): gather the rows at the sources, scale by the
    edge weights `n`, add into the rows at the targets, add the bias, then `max (·, 0)`. -/
def layerRelu (s d : (⟨S1650000, .i32⟩ : BufTy).Contents (Elt F)) (n : (⟨S1650000, .f32⟩ : BufTy).Contents (Elt F))
    (b : (⟨S128, .f32⟩ : BufTy).Contents (Elt F)) (h : (⟨S50000x128, .f32⟩ : BufTy).Contents (Elt F)) :
    (⟨S50000x128, .f32⟩ : BufTy).Contents (Elt F) :=
  maximumf
    (addf
      (Host.scatterAdd scatter_S50000x128_S1650000x1_S1650000x128_1_0_0_1
        (broadcastInDim S50000x128 ![] bcast_S_S50000x128 (constant S_ .f32 0x00000000#32)) (col (F := F) d)
        (mulf (Host.gather gather_S50000x128_S1650000x1_S1650000x128_1_0_n_n_0_1_1128 h (wrapCol (F := F) s))
          (broadcastInDim S1650000x128 ![0, 1] bcast_S1650000x1_S1650000x128_0_1
            (broadcastInDim S1650000x1 ![0] bcast_S1650000_S1650000x1_0 n))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The second layer after its matrix product `h` (`[N, 64]`): the same aggregation and bias, no `max`. -/
def layerOut (s d : (⟨S1650000, .i32⟩ : BufTy).Contents (Elt F)) (n : (⟨S1650000, .f32⟩ : BufTy).Contents (Elt F))
    (b : (⟨S64, .f32⟩ : BufTy).Contents (Elt F)) (h : (⟨S50000x64, .f32⟩ : BufTy).Contents (Elt F)) :
    (⟨S50000x64, .f32⟩ : BufTy).Contents (Elt F) :=
  addf
    (Host.scatterAdd scatter_S50000x64_S1650000x1_S1650000x64_1_0_0_1
      (broadcastInDim S50000x64 ![] bcast_S_S50000x64 (constant S_ .f32 0x00000000#32)) (col (F := F) d)
      (mulf (Host.gather gather_S50000x64_S1650000x1_S1650000x64_1_0_n_n_0_1_164 h (wrapCol (F := F) s))
        (broadcastInDim S1650000x64 ![0, 1] bcast_S1650000x1_S1650000x64_0_1
          (broadcastInDim S1650000x1 ![0] bcast_S1650000_S1650000x1_0 n))))
    (broadcastInDim S50000x64 ![0, 1] bcast_S1x64_S50000x64_0_1 (broadcastInDim S1x64 ![1] bcast_S64_S1x64_1 b))

/-- The whole network: both layers over the same extended edges and weights, each matrix product the
    host's `dot_general` (row `i`, column `j`: the sum over `k` of `x i k * w k j`). -/
def net (x : (⟨S50000x384, .f32⟩ : BufTy).Contents (Elt F)) (e : (⟨S2x1600000, .i32⟩ : BufTy).Contents (Elt F))
    (w1 : (⟨S384x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S50000x64, .f32⟩ : BufTy).Contents (Elt F) :=
  layerOut (srcWords (F := F) e) (dstWords (F := F) e) (edgeNorm (F := F) (invSqrtDeg (F := F) (dstWords (F := F) e)) (srcWords (F := F) e) (dstWords (F := F) e)) b2
    (Host.dotGeneral dot_S50000x128_S128x64_S50000x64_1_0_0_1_n_n none
      (layerRelu (srcWords (F := F) e) (dstWords (F := F) e) (edgeNorm (F := F) (invSqrtDeg (F := F) (dstWords (F := F) e)) (srcWords (F := F) e) (dstWords (F := F) e)) b1
        (Host.dotGeneral dot_S50000x384_S384x128_S50000x128_1_0_0_1_n_n none x w1))
      w2)

end Cert.Gcn

end
-- ==== Proof.RefRun.lean ====
/-
  The idealized reference's run, read back as the function `Net.net` of its arguments.

  The reference is a straight line of 119 host operations. They are listed here as the printed program
  has them and cut into eight stretches: the extended edge words and the per-node factor (21), the edge
  weights (19), the first matrix product (1), the first layer's aggregation (22), the same words, factor
  and weights computed a second time from the edge list's two rows (17 + 19), the second matrix product
  (1), the second layer's aggregation (19). From ANY buffer contents at its start each stretch leaves in
  its result buffers one of `Net`'s functions of what it reads, and leaves alone what it does not write;
  chaining the eight gives the result buffer at `net` of the argument arrays. The second computation of
  the words and weights is the first one's, so the two layers share them, as in `net`.
-/
import proofs.«114819_j67396626809139_1_alg».proof.Proof.Gen.ReferenceIdeal
import proofs.«114819_j67396626809139_1_alg».proof.Proof.Net
import Idealize.ShloMosaic.Lib.StableHlo.Run
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## @main as a list of operations -/

/-- @main's 119 operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S50000 32 0),
    binary main_v1 main_v4 main_v5 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v4 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v5 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v5 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v5 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)),
    binary main_arg0 main_arg2 main_v30 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v5 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v5 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v5 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    nullary main_v48 (iotaInDim S50000 32 0),
    binary main_v1 main_v48 main_v49 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v48 main_v50 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_9 (constant S_ .f32 0x3F800000#32),
    unary main_cst_9 main_v51 (broadcastInDim S1650000 ![] bcast_S_S1650000 : (⟨S_, .f32⟩ : BufTy).Contents (Elt F) → (⟨S1650000, .f32⟩ : BufTy).Contents (Elt F)),
    nullary main_cst_10 (constant S_ .f32 0x00000000#32),
    unary main_cst_10 main_v52 (broadcastInDim S50000 ![] bcast_S_S50000 : (⟨S_, .f32⟩ : BufTy).Contents (Elt F) → (⟨S50000, .f32⟩ : BufTy).Contents (Elt F)),
    unary main_v50 main_v53 (broadcastInDim S1650000x1 ![0] bcast_S1650000_S1650000x1_0 : (⟨S1650000, .i32⟩ : BufTy).Contents (Elt F) → (⟨S1650000x1, .i32⟩ : BufTy).Contents (Elt F)),
    ternary main_v52 main_v53 main_v51 main_v54 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_11 (constant S_ .f32 0x00000000#32),
    unary main_cst_11 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    unary main_v54 main_v57 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v56) (TRef.of (T := ⟨S50000, .f32⟩) main_v57) (TRef.of (T := ⟨S50000, .f32⟩) main_call2_v1) (TRef.of (T := ⟨S50000, .f32⟩) main_v58) select,
    nullary main_c_13 (constantI S_ 32 0#32),
    unary main_c_13 main_v59 (broadcastInDim S1650000 ![] bcast_S_S1650000 : (⟨S_, .i32⟩ : BufTy).Contents (Elt F) → (⟨S1650000, .i32⟩ : BufTy).Contents (Elt F)),
    binary main_v49 main_v59 main_v60 (cmpi .slt : (⟨S1650000, .i32⟩ : BufTy).Contents (Elt F) → (⟨S1650000, .i32⟩ : BufTy).Contents (Elt F) → (⟨S1650000, .i1⟩ : BufTy).Contents (Elt F)),
    nullary main_c_14 (constantI S_ 32 50000#32),
    unary main_c_14 main_v61 (broadcastInDim S1650000 ![] bcast_S_S1650000 : (⟨S_, .i32⟩ : BufTy).Contents (Elt F) → (⟨S1650000, .i32⟩ : BufTy).Contents (Elt F)),
    binary main_v49 main_v61 main_v62 (addi : (⟨S1650000, .i32⟩ : BufTy).Contents (Elt F) → (⟨S1650000, .i32⟩ : BufTy).Contents (Elt F) → (⟨S1650000, .i32⟩ : BufTy).Contents (Elt F)),
    ternary main_v60 main_v62 main_v49 main_v63 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v63 main_v64 (broadcastInDim S1650000x1 ![0] bcast_S1650000_S1650000x1_0 : (⟨S1650000, .i32⟩ : BufTy).Contents (Elt F) → (⟨S1650000x1, .i32⟩ : BufTy).Contents (Elt F)),
    binary main_v58 main_v64 main_v65 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_15 (constantI S_ 32 0#32),
    unary main_c_15 main_v66 (broadcastInDim S1650000 ![] bcast_S_S1650000 : (⟨S_, .i32⟩ : BufTy).Contents (Elt F) → (⟨S1650000, .i32⟩ : BufTy).Contents (Elt F)),
    binary main_v50 main_v66 main_v67 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v68 (broadcastInDim S1650000 ![] bcast_S_S1650000 : (⟨S_, .i32⟩ : BufTy).Contents (Elt F) → (⟨S1650000, .i32⟩ : BufTy).Contents (Elt F)),
    binary main_v50 main_v68 main_v69 (addi : (⟨S1650000, .i32⟩ : BufTy).Contents (Elt F) → (⟨S1650000, .i32⟩ : BufTy).Contents (Elt F) → (⟨S1650000, .i32⟩ : BufTy).Contents (Elt F)),
    ternary main_v67 main_v69 main_v50 main_v70 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v70 main_v71 (broadcastInDim S1650000x1 ![0] bcast_S1650000_S1650000x1_0 : (⟨S1650000, .i32⟩ : BufTy).Contents (Elt F) → (⟨S1650000x1, .i32⟩ : BufTy).Contents (Elt F)),
    binary main_v58 main_v71 main_v72 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v65 main_v72 main_v73 (mulf : (⟨S1650000, .f32⟩ : BufTy).Contents (Elt F) → (⟨S1650000, .f32⟩ : BufTy).Contents (Elt F) → (⟨S1650000, .f32⟩ : BufTy).Contents (Elt F)),
    binary main_v47 main_arg4 main_v74 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_17 (constantI S_ 32 0#32),
    unary main_c_17 main_v75 (broadcastInDim S1650000 ![] bcast_S_S1650000 : (⟨S_, .i32⟩ : BufTy).Contents (Elt F) → (⟨S1650000, .i32⟩ : BufTy).Contents (Elt F)),
    binary main_v49 main_v75 main_v76 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v77 (broadcastInDim S1650000 ![] bcast_S_S1650000 : (⟨S_, .i32⟩ : BufTy).Contents (Elt F) → (⟨S1650000, .i32⟩ : BufTy).Contents (Elt F)),
    binary main_v49 main_v77 main_v78 (addi : (⟨S1650000, .i32⟩ : BufTy).Contents (Elt F) → (⟨S1650000, .i32⟩ : BufTy).Contents (Elt F) → (⟨S1650000, .i32⟩ : BufTy).Contents (Elt F)),
    ternary main_v76 main_v78 main_v49 main_v79 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v79 main_v80 (broadcastInDim S1650000x1 ![0] bcast_S1650000_S1650000x1_0 : (⟨S1650000, .i32⟩ : BufTy).Contents (Elt F) → (⟨S1650000x1, .i32⟩ : BufTy).Contents (Elt F)),
    binary main_v74 main_v80 main_v81 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v73 main_v82 (broadcastInDim S1650000x1 ![0] bcast_S1650000_S1650000x1_0 : (⟨S1650000, .f32⟩ : BufTy).Contents (Elt F) → (⟨S1650000x1, .f32⟩ : BufTy).Contents (Elt F)),
    unary main_v82 main_v83 (broadcastInDim S1650000x64 ![0, 1] bcast_S1650000x1_S1650000x64_0_1 : (⟨S1650000x1, .f32⟩ : BufTy).Contents (Elt F) → (⟨S1650000x64, .f32⟩ : BufTy).Contents (Elt F)),
    binary main_v81 main_v83 main_v84 (mulf : (⟨S1650000x64, .f32⟩ : BufTy).Contents (Elt F) → (⟨S1650000x64, .f32⟩ : BufTy).Contents (Elt F) → (⟨S1650000x64, .f32⟩ : BufTy).Contents (Elt F)),
    nullary main_cst_19 (constant S_ .f32 0x00000000#32),
    unary main_cst_19 main_v85 (broadcastInDim S50000x64 ![] bcast_S_S50000x64 : (⟨S_, .f32⟩ : BufTy).Contents (Elt F) → (⟨S50000x64, .f32⟩ : BufTy).Contents (Elt F)),
    unary main_v50 main_v86 (broadcastInDim S1650000x1 ![0] bcast_S1650000_S1650000x1_0 : (⟨S1650000, .i32⟩ : BufTy).Contents (Elt F) → (⟨S1650000x1, .i32⟩ : BufTy).Contents (Elt F)),
    ternary main_v85 main_v86 main_v84 main_v87 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg5 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-! ## The eight stretches -/

/-- Operations 1 … 21 of @main. -/
def opsA1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S50000 32 0),
    binary main_v1 main_v4 main_v5 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v4 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Operations 22 … 40 of @main. -/
def opsA2 : List (HloOp τ sig (Elt F)) :=
  [ nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v5 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v5 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v5 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)) ]

/-- Operations 41 … 41 of @main. -/
def opsD1 : List (HloOp τ sig (Elt F)) :=
  [ binary main_arg0 main_arg2 main_v30 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)) ]

/-- Operations 42 … 63 of @main. -/
def opsB : List (HloOp τ sig (Elt F)) :=
  [ nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v5 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v5 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v5 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- Operations 64 … 80 of @main. -/
def opsC1 : List (HloOp τ sig (Elt F)) :=
  [ nullary main_v48 (iotaInDim S50000 32 0),
    binary main_v1 main_v48 main_v49 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v48 main_v50 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_9 (constant S_ .f32 0x3F800000#32),
    unary main_cst_9 main_v51 (broadcastInDim S1650000 ![] bcast_S_S1650000 : (⟨S_, .f32⟩ : BufTy).Contents (Elt F) → (⟨S1650000, .f32⟩ : BufTy).Contents (Elt F)),
    nullary main_cst_10 (constant S_ .f32 0x00000000#32),
    unary main_cst_10 main_v52 (broadcastInDim S50000 ![] bcast_S_S50000 : (⟨S_, .f32⟩ : BufTy).Contents (Elt F) → (⟨S50000, .f32⟩ : BufTy).Contents (Elt F)),
    unary main_v50 main_v53 (broadcastInDim S1650000x1 ![0] bcast_S1650000_S1650000x1_0 : (⟨S1650000, .i32⟩ : BufTy).Contents (Elt F) → (⟨S1650000x1, .i32⟩ : BufTy).Contents (Elt F)),
    ternary main_v52 main_v53 main_v51 main_v54 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_11 (constant S_ .f32 0x00000000#32),
    unary main_cst_11 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    unary main_v54 main_v57 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v56) (TRef.of (T := ⟨S50000, .f32⟩) main_v57) (TRef.of (T := ⟨S50000, .f32⟩) main_call2_v1) (TRef.of (T := ⟨S50000, .f32⟩) main_v58) select ]

/-- Operations 81 … 99 of @main. -/
def opsC2 : List (HloOp τ sig (Elt F)) :=
  [ nullary main_c_13 (constantI S_ 32 0#32),
    unary main_c_13 main_v59 (broadcastInDim S1650000 ![] bcast_S_S1650000 : (⟨S_, .i32⟩ : BufTy).Contents (Elt F) → (⟨S1650000, .i32⟩ : BufTy).Contents (Elt F)),
    binary main_v49 main_v59 main_v60 (cmpi .slt : (⟨S1650000, .i32⟩ : BufTy).Contents (Elt F) → (⟨S1650000, .i32⟩ : BufTy).Contents (Elt F) → (⟨S1650000, .i1⟩ : BufTy).Contents (Elt F)),
    nullary main_c_14 (constantI S_ 32 50000#32),
    unary main_c_14 main_v61 (broadcastInDim S1650000 ![] bcast_S_S1650000 : (⟨S_, .i32⟩ : BufTy).Contents (Elt F) → (⟨S1650000, .i32⟩ : BufTy).Contents (Elt F)),
    binary main_v49 main_v61 main_v62 (addi : (⟨S1650000, .i32⟩ : BufTy).Contents (Elt F) → (⟨S1650000, .i32⟩ : BufTy).Contents (Elt F) → (⟨S1650000, .i32⟩ : BufTy).Contents (Elt F)),
    ternary main_v60 main_v62 main_v49 main_v63 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v63 main_v64 (broadcastInDim S1650000x1 ![0] bcast_S1650000_S1650000x1_0 : (⟨S1650000, .i32⟩ : BufTy).Contents (Elt F) → (⟨S1650000x1, .i32⟩ : BufTy).Contents (Elt F)),
    binary main_v58 main_v64 main_v65 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_15 (constantI S_ 32 0#32),
    unary main_c_15 main_v66 (broadcastInDim S1650000 ![] bcast_S_S1650000 : (⟨S_, .i32⟩ : BufTy).Contents (Elt F) → (⟨S1650000, .i32⟩ : BufTy).Contents (Elt F)),
    binary main_v50 main_v66 main_v67 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v68 (broadcastInDim S1650000 ![] bcast_S_S1650000 : (⟨S_, .i32⟩ : BufTy).Contents (Elt F) → (⟨S1650000, .i32⟩ : BufTy).Contents (Elt F)),
    binary main_v50 main_v68 main_v69 (addi : (⟨S1650000, .i32⟩ : BufTy).Contents (Elt F) → (⟨S1650000, .i32⟩ : BufTy).Contents (Elt F) → (⟨S1650000, .i32⟩ : BufTy).Contents (Elt F)),
    ternary main_v67 main_v69 main_v50 main_v70 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v70 main_v71 (broadcastInDim S1650000x1 ![0] bcast_S1650000_S1650000x1_0 : (⟨S1650000, .i32⟩ : BufTy).Contents (Elt F) → (⟨S1650000x1, .i32⟩ : BufTy).Contents (Elt F)),
    binary main_v58 main_v71 main_v72 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v65 main_v72 main_v73 (mulf : (⟨S1650000, .f32⟩ : BufTy).Contents (Elt F) → (⟨S1650000, .f32⟩ : BufTy).Contents (Elt F) → (⟨S1650000, .f32⟩ : BufTy).Contents (Elt F)) ]

/-- Operations 100 … 100 of @main. -/
def opsD2 : List (HloOp τ sig (Elt F)) :=
  [ binary main_v47 main_arg4 main_v74 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- Operations 101 … 119 of @main. -/
def opsE : List (HloOp τ sig (Elt F)) :=
  [ nullary main_c_17 (constantI S_ 32 0#32),
    unary main_c_17 main_v75 (broadcastInDim S1650000 ![] bcast_S_S1650000 : (⟨S_, .i32⟩ : BufTy).Contents (Elt F) → (⟨S1650000, .i32⟩ : BufTy).Contents (Elt F)),
    binary main_v49 main_v75 main_v76 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v77 (broadcastInDim S1650000 ![] bcast_S_S1650000 : (⟨S_, .i32⟩ : BufTy).Contents (Elt F) → (⟨S1650000, .i32⟩ : BufTy).Contents (Elt F)),
    binary main_v49 main_v77 main_v78 (addi : (⟨S1650000, .i32⟩ : BufTy).Contents (Elt F) → (⟨S1650000, .i32⟩ : BufTy).Contents (Elt F) → (⟨S1650000, .i32⟩ : BufTy).Contents (Elt F)),
    ternary main_v76 main_v78 main_v49 main_v79 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v79 main_v80 (broadcastInDim S1650000x1 ![0] bcast_S1650000_S1650000x1_0 : (⟨S1650000, .i32⟩ : BufTy).Contents (Elt F) → (⟨S1650000x1, .i32⟩ : BufTy).Contents (Elt F)),
    binary main_v74 main_v80 main_v81 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v73 main_v82 (broadcastInDim S1650000x1 ![0] bcast_S1650000_S1650000x1_0 : (⟨S1650000, .f32⟩ : BufTy).Contents (Elt F) → (⟨S1650000x1, .f32⟩ : BufTy).Contents (Elt F)),
    unary main_v82 main_v83 (broadcastInDim S1650000x64 ![0, 1] bcast_S1650000x1_S1650000x64_0_1 : (⟨S1650000x1, .f32⟩ : BufTy).Contents (Elt F) → (⟨S1650000x64, .f32⟩ : BufTy).Contents (Elt F)),
    binary main_v81 main_v83 main_v84 (mulf : (⟨S1650000x64, .f32⟩ : BufTy).Contents (Elt F) → (⟨S1650000x64, .f32⟩ : BufTy).Contents (Elt F) → (⟨S1650000x64, .f32⟩ : BufTy).Contents (Elt F)),
    nullary main_cst_19 (constant S_ .f32 0x00000000#32),
    unary main_cst_19 main_v85 (broadcastInDim S50000x64 ![] bcast_S_S50000x64 : (⟨S_, .f32⟩ : BufTy).Contents (Elt F) → (⟨S50000x64, .f32⟩ : BufTy).Contents (Elt F)),
    unary main_v50 main_v86 (broadcastInDim S1650000x1 ![0] bcast_S1650000_S1650000x1_0 : (⟨S1650000, .i32⟩ : BufTy).Contents (Elt F) → (⟨S1650000x1, .i32⟩ : BufTy).Contents (Elt F)),
    ternary main_v85 main_v86 main_v84 main_v87 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg5 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)) ]

theorem ops_split : (ops : List (HloOp τ sig (Elt F)))
    = opsA1 ++ (opsA2 ++ (opsD1 ++ (opsB ++ (opsC1 ++ (opsC2 ++ (opsD2 ++ opsE)))))) := rfl

/-! ## What each stretch computes, from any contents at its start -/

theorem row0_of (W : Valuation τ sig (Elt F)) :
    after opsA1 W (Proc.devRef .tc main_v1) = Cert.Gcn.edgeRow0 (F := F) (W (Proc.devRef .tc main_arg1)) := by
  unfold opsA1
  after_results_simp
  rfl

theorem row1_of (W : Valuation τ sig (Elt F)) :
    after opsA1 W (Proc.devRef .tc main_v3) = Cert.Gcn.edgeRow1 (F := F) (W (Proc.devRef .tc main_arg1)) := by
  unfold opsA1
  after_results_simp
  rfl

theorem src_of (W : Valuation τ sig (Elt F)) :
    after opsA1 W (Proc.devRef .tc main_v5) = Cert.Gcn.srcWords (F := F) (W (Proc.devRef .tc main_arg1)) := by
  unfold opsA1
  after_results_simp
  rfl

theorem dst_of (W : Valuation τ sig (Elt F)) :
    after opsA1 W (Proc.devRef .tc main_v6) = Cert.Gcn.dstWords (F := F) (W (Proc.devRef .tc main_arg1)) := by
  unfold opsA1
  after_results_simp
  rfl

theorem invdeg_of (W : Valuation τ sig (Elt F)) :
    after opsA1 W (Proc.devRef .tc main_v14) = Cert.Gcn.invSqrtDeg (F := F) (Cert.Gcn.dstWords (F := F) (W (Proc.devRef .tc main_arg1))) := by
  unfold opsA1
  after_results_simp
  rfl

theorem norm_of (W : Valuation τ sig (Elt F)) :
    after opsA2 W (Proc.devRef .tc main_v29) = Cert.Gcn.edgeNorm (F := F) (W (Proc.devRef .tc main_v14)) (W (Proc.devRef .tc main_v5)) (W (Proc.devRef .tc main_v6)) := by
  unfold opsA2
  after_results_simp
  rfl

theorem dot1_of (W : Valuation τ sig (Elt F)) :
    after opsD1 W (Proc.devRef .tc main_v30) = Host.dotGeneral (F := F) dot_S50000x384_S384x128_S50000x128_1_0_0_1_n_n none (W (Proc.devRef .tc main_arg0)) (W (Proc.devRef .tc main_arg2)) := by
  unfold opsD1
  after_results_simp

theorem relu_of (W : Valuation τ sig (Elt F)) :
    after opsB W (Proc.devRef .tc main_v47) = Cert.Gcn.layerRelu (F := F) (W (Proc.devRef .tc main_v5)) (W (Proc.devRef .tc main_v6)) (W (Proc.devRef .tc main_v29)) (W (Proc.devRef .tc main_arg3)) (W (Proc.devRef .tc main_v30)) := by
  unfold opsB
  after_results_simp
  rfl

theorem src2_of (W : Valuation τ sig (Elt F)) :
    after opsC1 W (Proc.devRef .tc main_v49) = Cert.Gcn.withLoops (F := F) (W (Proc.devRef .tc main_v1)) := by
  unfold opsC1
  after_results_simp
  rfl

theorem dst2_of (W : Valuation τ sig (Elt F)) :
    after opsC1 W (Proc.devRef .tc main_v50) = Cert.Gcn.withLoops (F := F) (W (Proc.devRef .tc main_v3)) := by
  unfold opsC1
  after_results_simp
  rfl

theorem invdeg2_of (W : Valuation τ sig (Elt F)) :
    after opsC1 W (Proc.devRef .tc main_v58) = Cert.Gcn.invSqrtDeg (F := F) (Cert.Gcn.withLoops (F := F) (W (Proc.devRef .tc main_v3))) := by
  unfold opsC1
  after_results_simp
  rfl

theorem norm2_of (W : Valuation τ sig (Elt F)) :
    after opsC2 W (Proc.devRef .tc main_v73) = Cert.Gcn.edgeNorm (F := F) (W (Proc.devRef .tc main_v58)) (W (Proc.devRef .tc main_v49)) (W (Proc.devRef .tc main_v50)) := by
  unfold opsC2
  after_results_simp
  rfl

theorem dot2_of (W : Valuation τ sig (Elt F)) :
    after opsD2 W (Proc.devRef .tc main_v74) = Host.dotGeneral (F := F) dot_S50000x128_S128x64_S50000x64_1_0_0_1_n_n none (W (Proc.devRef .tc main_v47)) (W (Proc.devRef .tc main_arg4)) := by
  unfold opsD2
  after_results_simp

theorem out_of (W : Valuation τ sig (Elt F)) :
    after opsE W (Proc.devRef .tc main_v90) = Cert.Gcn.layerOut (F := F) (W (Proc.devRef .tc main_v49)) (W (Proc.devRef .tc main_v50)) (W (Proc.devRef .tc main_v73)) (W (Proc.devRef .tc main_arg5)) (W (Proc.devRef .tc main_v74)) := by
  unfold opsE
  after_results_simp
  rfl

/-! ## What each stretch leaves alone -/

/-- The buffers `opsA1` writes. -/
abbrev writtenA1 : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14]
theorem writesA1 : (opsA1 : List (HloOp τ sig (Elt F))).Forall fun op => op.writes ⊆ (writtenA1.map (Proc.devRef (τ := τ) .tc)).toFinset := by
  unfold opsA1
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))
theorem keepA1 (W : Valuation τ sig (Elt F)) {r : Ref sig .tc} (h : r ∉ writtenA1) :
    after opsA1 W (Proc.devRef .tc r) = W (Proc.devRef .tc r) :=
  after_of_writes_sub opsA1 W writesA1 h

/-- The buffers `opsA2` writes. -/
abbrev writtenA2 : List (Ref sig .tc) := [main_c, main_v15, main_v16, main_c_3, main_v17, main_v18, main_v19, main_v20, main_v21, main_c_4, main_v22, main_v23, main_c_5, main_v24, main_v25, main_v26, main_v27, main_v28, main_v29]
theorem writesA2 : (opsA2 : List (HloOp τ sig (Elt F))).Forall fun op => op.writes ⊆ (writtenA2.map (Proc.devRef (τ := τ) .tc)).toFinset := by
  unfold opsA2
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))
theorem keepA2 (W : Valuation τ sig (Elt F)) {r : Ref sig .tc} (h : r ∉ writtenA2) :
    after opsA2 W (Proc.devRef .tc r) = W (Proc.devRef .tc r) :=
  after_of_writes_sub opsA2 W writesA2 h

/-- The buffers `opsD1` writes. -/
abbrev writtenD1 : List (Ref sig .tc) := [main_v30]
theorem writesD1 : (opsD1 : List (HloOp τ sig (Elt F))).Forall fun op => op.writes ⊆ (writtenD1.map (Proc.devRef (τ := τ) .tc)).toFinset := by
  unfold opsD1
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))
theorem keepD1 (W : Valuation τ sig (Elt F)) {r : Ref sig .tc} (h : r ∉ writtenD1) :
    after opsD1 W (Proc.devRef .tc r) = W (Proc.devRef .tc r) :=
  after_of_writes_sub opsD1 W writesD1 h

/-- The buffers `opsB` writes. -/
abbrev writtenB : List (Ref sig .tc) := [main_c_6, main_v31, main_v32, main_c_7, main_v33, main_v34, main_v35, main_v36, main_v37, main_v38, main_v39, main_v40, main_cst_8, main_v41, main_v42, main_v43, main_v44, main_v45, main_v46, main_call1_cst, main_call1_v0, main_v47]
theorem writesB : (opsB : List (HloOp τ sig (Elt F))).Forall fun op => op.writes ⊆ (writtenB.map (Proc.devRef (τ := τ) .tc)).toFinset := by
  unfold opsB
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))
theorem keepB (W : Valuation τ sig (Elt F)) {r : Ref sig .tc} (h : r ∉ writtenB) :
    after opsB W (Proc.devRef .tc r) = W (Proc.devRef .tc r) :=
  after_of_writes_sub opsB W writesB h

/-- The buffers `opsC1` writes. -/
abbrev writtenC1 : List (Ref sig .tc) := [main_v48, main_v49, main_v50, main_cst_9, main_v51, main_cst_10, main_v52, main_v53, main_v54, main_cst_11, main_v55, main_v56, main_v57, main_cst_12, main_call2_v0, main_call2_v1, main_v58]
theorem writesC1 : (opsC1 : List (HloOp τ sig (Elt F))).Forall fun op => op.writes ⊆ (writtenC1.map (Proc.devRef (τ := τ) .tc)).toFinset := by
  unfold opsC1
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))
theorem keepC1 (W : Valuation τ sig (Elt F)) {r : Ref sig .tc} (h : r ∉ writtenC1) :
    after opsC1 W (Proc.devRef .tc r) = W (Proc.devRef .tc r) :=
  after_of_writes_sub opsC1 W writesC1 h

/-- The buffers `opsC2` writes. -/
abbrev writtenC2 : List (Ref sig .tc) := [main_c_13, main_v59, main_v60, main_c_14, main_v61, main_v62, main_v63, main_v64, main_v65, main_c_15, main_v66, main_v67, main_c_16, main_v68, main_v69, main_v70, main_v71, main_v72, main_v73]
theorem writesC2 : (opsC2 : List (HloOp τ sig (Elt F))).Forall fun op => op.writes ⊆ (writtenC2.map (Proc.devRef (τ := τ) .tc)).toFinset := by
  unfold opsC2
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))
theorem keepC2 (W : Valuation τ sig (Elt F)) {r : Ref sig .tc} (h : r ∉ writtenC2) :
    after opsC2 W (Proc.devRef .tc r) = W (Proc.devRef .tc r) :=
  after_of_writes_sub opsC2 W writesC2 h

/-- The buffers `opsD2` writes. -/
abbrev writtenD2 : List (Ref sig .tc) := [main_v74]
theorem writesD2 : (opsD2 : List (HloOp τ sig (Elt F))).Forall fun op => op.writes ⊆ (writtenD2.map (Proc.devRef (τ := τ) .tc)).toFinset := by
  unfold opsD2
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))
theorem keepD2 (W : Valuation τ sig (Elt F)) {r : Ref sig .tc} (h : r ∉ writtenD2) :
    after opsD2 W (Proc.devRef .tc r) = W (Proc.devRef .tc r) :=
  after_of_writes_sub opsD2 W writesD2 h

/-- The buffers `opsE` writes. -/
abbrev writtenE : List (Ref sig .tc) := [main_c_17, main_v75, main_v76, main_c_18, main_v77, main_v78, main_v79, main_v80, main_v81, main_v82, main_v83, main_v84, main_cst_19, main_v85, main_v86, main_v87, main_v88, main_v89, main_v90]
theorem writesE : (opsE : List (HloOp τ sig (Elt F))).Forall fun op => op.writes ⊆ (writtenE.map (Proc.devRef (τ := τ) .tc)).toFinset := by
  unfold opsE
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))
theorem keepE (W : Valuation τ sig (Elt F)) {r : Ref sig .tc} (h : r ∉ writtenE) :
    after opsE W (Proc.devRef .tc r) = W (Proc.devRef .tc r) :=
  after_of_writes_sub opsE W writesE h

/-- Every buffer @main writes: no argument is among them. -/
abbrev writtenAll : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_call1_cst, main_call1_v0, main_v47, main_v48, main_v49, main_v50, main_cst_9, main_v51, main_cst_10, main_v52, main_v53, main_v54, main_cst_11, main_v55, main_v56, main_v57, main_cst_12, main_call2_v0, main_call2_v1, main_v58, main_c_13, main_v59, main_v60, main_c_14, main_v61, main_v62, main_v63, main_v64, main_v65, main_c_15, main_v66, main_v67, main_c_16, main_v68, main_v69, main_v70, main_v71, main_v72, main_v73, main_v74, main_c_17, main_v75, main_v76, main_c_18, main_v77, main_v78, main_v79, main_v80, main_v81, main_v82, main_v83, main_v84, main_cst_19, main_v85, main_v86, main_v87, main_v88, main_v89, main_v90]
set_option maxRecDepth 8192 in
theorem writesAll : (ops : List (HloOp τ sig (Elt F))).Forall fun op => op.writes ⊆ (writtenAll.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

/-! ## The whole line -/

/-- From any contents `W`, the result buffer ends at `net` of the six argument buffers' contents. -/
theorem value (W : Valuation τ sig (Elt F)) :
    after ops W (Proc.devRef .tc main_v90)
      = Cert.Gcn.net (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [ops_split]
  simp only [StableHlo.after_append]
  rw [out_of]
  rw [dot2_of, keepD2 _ (r := main_v49) (by decide), keepD2 _ (r := main_v50) (by decide), keepD2 _ (r := main_v73) (by decide), keepD2 _ (r := main_arg5) (by decide)]
  rw [norm2_of, keepC2 _ (r := main_v49) (by decide), keepC2 _ (r := main_v50) (by decide), keepC2 _ (r := main_arg5) (by decide), keepC2 _ (r := main_v47) (by decide), keepC2 _ (r := main_arg4) (by decide)]
  rw [src2_of, dst2_of, invdeg2_of, keepC1 _ (r := main_arg5) (by decide), keepC1 _ (r := main_v47) (by decide), keepC1 _ (r := main_arg4) (by decide)]
  rw [relu_of, keepB _ (r := main_v1) (by decide), keepB _ (r := main_v3) (by decide), keepB _ (r := main_arg5) (by decide), keepB _ (r := main_arg4) (by decide)]
  rw [dot1_of, keepD1 _ (r := main_v5) (by decide), keepD1 _ (r := main_v6) (by decide), keepD1 _ (r := main_v29) (by decide), keepD1 _ (r := main_arg3) (by decide), keepD1 _ (r := main_v1) (by decide), keepD1 _ (r := main_v3) (by decide), keepD1 _ (r := main_arg5) (by decide), keepD1 _ (r := main_arg4) (by decide)]
  rw [norm_of, keepA2 _ (r := main_v5) (by decide), keepA2 _ (r := main_v6) (by decide), keepA2 _ (r := main_arg3) (by decide), keepA2 _ (r := main_arg0) (by decide), keepA2 _ (r := main_arg2) (by decide), keepA2 _ (r := main_v1) (by decide), keepA2 _ (r := main_v3) (by decide), keepA2 _ (r := main_arg5) (by decide), keepA2 _ (r := main_arg4) (by decide)]
  rw [src_of, dst_of, invdeg_of, row0_of, row1_of, keepA1 _ (r := main_arg3) (by decide), keepA1 _ (r := main_arg0) (by decide), keepA1 _ (r := main_arg2) (by decide), keepA1 _ (r := main_arg5) (by decide), keepA1 _ (r := main_arg4) (by decide)]
  rfl

/-- On every device, from any memory with zero counters: every weakly fair execution of the reference
    terminates with its result at `net` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90)
          = Cert.Gcn.net (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v90).trans (value _),
      (h c main_arg0).trans (after_of_writes_sub ops _ writesAll (by decide)),
      (h c main_arg1).trans (after_of_writes_sub ops _ writesAll (by decide)),
      (h c main_arg2).trans (after_of_writes_sub ops _ writesAll (by decide)),
      (h c main_arg3).trans (after_of_writes_sub ops _ writesAll (by decide)),
      (h c main_arg4).trans (after_of_writes_sub ops _ writesAll (by decide)),
      (h c main_arg5).trans (after_of_writes_sub ops _ writesAll (by decide))⟩)
    (run_seq scopedRefs_eq scopedSems_eq defs main (fun _ => ops) main_eq (fun _ => ops_sub) m ρ)

end Cert.ReferenceIdeal.HostRun

end
-- ==== Proof.KRun.lean ====
/-
  The idealized kernel's run with its result named. Every weakly fair execution of the program
  (host operations, the first row-tiled product, host operations, the second row-tiled product, host
  operations) terminates without a fault, and in every final state the result buffer holds what the
  fold of the program's segments computes for it: the last stretch of host operations applied to the
  buffer contents the second product leaves, themselves the stretch before applied to what the first
  product leaves, and so on back to the launch memory. The argument arrays end unchanged.
  The later modules read that fold back, one segment at a time.
-/
import proofs.«114819_j67396626809139_1_alg».proof.Proof.Gen.KernelIdeal.Frame

set_option maxRecDepth 16384

noncomputable section

namespace Cert.KernelIdeal.RunNamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, its result buffer ends at the fold's value for it (the last boundary's contents),
    and its argument arrays end as launched. -/
theorem run_named : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunNamed

end
-- ==== Proof.KHost.lean ====
/-
  The idealized kernel's host operations, stretch by stretch, as the functions of `Net`: from ANY buffer
  contents `W` at the start of a stretch, the buffers it leaves are

  * the first 21 operations: the extended source and target words of the edge list, and the per-node
    factor `deg ^ (-1/2)` (zero where the degree is zero);
  * the next 19: the edge weights, from that factor and the words;
  * the 22 after the first product: the first layer (gather at the sources, scale, add at the targets,
    bias, `max (·, 0)`) of the product's array;
  * the 19 after the second product: the second layer (the same without the `max`) of that product's array;

  and every buffer a stretch does not write keeps its contents. The program's operations are over its
  own copies of the shapes and of the gather / scatter descriptions; they are the reference's, by unfolding.
-/
import proofs.«114819_j67396626809139_1_alg».proof.Proof.Gen.KernelIdeal.Launch
import proofs.«114819_j67396626809139_1_alg».proof.Proof.Gen.ReferenceIdeal
import proofs.«114819_j67396626809139_1_alg».proof.Proof.Net
import Idealize.ShloMosaic.Lib.StableHlo.Run

noncomputable section

namespace Cert.KernelIdeal.HostStretch

open Idealize.ShloMosaic Idealize.ShloMosaic.StableHlo Cert.KernelIdeal Cert.KernelIdeal.Gen

variable {F : FTy → Type} [FloatOps F]

/-! ## What each stretch computes -/

theorem src_of (W : Valuation τ sig (Elt F)) :
    after hostOps0_1 (after hostOps0 W) (Proc.devRef .tc main_v5) = Cert.Gcn.srcWords (F := F) (W (Proc.devRef .tc main_arg1)) := by
  after_results_simp
  rfl

theorem dst_of (W : Valuation τ sig (Elt F)) :
    after hostOps0_1 (after hostOps0 W) (Proc.devRef .tc main_v6) = Cert.Gcn.dstWords (F := F) (W (Proc.devRef .tc main_arg1)) := by
  after_results_simp
  rfl

theorem invdeg_of (W : Valuation τ sig (Elt F)) :
    after hostOps0_1 (after hostOps0 W) (Proc.devRef .tc main_v14)
      = Cert.Gcn.invSqrtDeg (F := F) (Cert.Gcn.dstWords (F := F) (W (Proc.devRef .tc main_arg1))) := by
  after_results_simp
  rfl

theorem norm_of (W : Valuation τ sig (Elt F)) :
    after hostOps0_2 W (Proc.devRef .tc main_v29)
      = Cert.Gcn.edgeNorm (F := F) (W (Proc.devRef .tc main_v14)) (W (Proc.devRef .tc main_v5)) (W (Proc.devRef .tc main_v6)) := by
  after_results_simp
  rfl

theorem relu_of (W : Valuation τ sig (Elt F)) :
    after hostOps1_1 (after hostOps1 W) (Proc.devRef .tc main_v47)
      = Cert.Gcn.layerRelu (F := F) (W (Proc.devRef .tc main_v5)) (W (Proc.devRef .tc main_v6)) (W (Proc.devRef .tc main_v29)) (W (Proc.devRef .tc main_arg3)) (W (Proc.devRef .tc main_v30)) := by
  after_results_simp
  rfl

theorem out_of (W : Valuation τ sig (Elt F)) :
    after hostOps2 W (Proc.devRef .tc main_v64)
      = Cert.Gcn.layerOut (F := F) (W (Proc.devRef .tc main_v5)) (W (Proc.devRef .tc main_v6)) (W (Proc.devRef .tc main_v29)) (W (Proc.devRef .tc main_arg5)) (W (Proc.devRef .tc main_v48)) := by
  after_results_simp
  rfl

/-! ## What each stretch leaves alone -/

/-- The buffers stretch `hostOps0` writes. -/
abbrev written0 : List (Ref sig .tc) := [main_v0, main_v1, main_v2, main_v3, main_v4, main_v5, main_v6, main_cst, main_v7, main_cst_0, main_v8, main_v9, main_v10, main_cst_1, main_v11, main_v12, main_v13, main_cst_2]
theorem writes0 : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem keep0 (W : Valuation τ sig (Elt F)) {r : Ref sig .tc} (h : r ∉ written0) :
    after hostOps0 W (Proc.devRef .tc r) = W (Proc.devRef .tc r) :=
  after_of_writes_sub hostOps0 W writes0 h

/-- The buffers stretch `hostOps0_1` writes. -/
abbrev written0_1 : List (Ref sig .tc) := [main_call0_v0, main_call0_v1, main_v14]
theorem writes0_1 : (hostOps0_1 : List (HloOp τ sig (Elt F))).Forall fun op => op.writes ⊆ (written0_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem keep0_1 (W : Valuation τ sig (Elt F)) {r : Ref sig .tc} (h : r ∉ written0_1) :
    after hostOps0_1 W (Proc.devRef .tc r) = W (Proc.devRef .tc r) :=
  after_of_writes_sub hostOps0_1 W writes0_1 h

/-- The buffers stretch `hostOps0_2` writes. -/
abbrev written0_2 : List (Ref sig .tc) := [main_c, main_v15, main_v16, main_c_3, main_v17, main_v18, main_v19, main_v20, main_v21, main_c_4, main_v22, main_v23, main_c_5, main_v24, main_v25, main_v26, main_v27, main_v28, main_v29]
theorem writes0_2 : (hostOps0_2 : List (HloOp τ sig (Elt F))).Forall fun op => op.writes ⊆ (written0_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem keep0_2 (W : Valuation τ sig (Elt F)) {r : Ref sig .tc} (h : r ∉ written0_2) :
    after hostOps0_2 W (Proc.devRef .tc r) = W (Proc.devRef .tc r) :=
  after_of_writes_sub hostOps0_2 W writes0_2 h

/-- The buffers stretch `hostOps1` writes. -/
abbrev written1 : List (Ref sig .tc) := [main_c_6, main_v31, main_v32, main_c_7, main_v33, main_v34, main_v35, main_v36, main_v37, main_v38, main_v39, main_v40, main_cst_8, main_v41, main_v42, main_v43, main_v44, main_v45, main_v46]
theorem writes1 : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem keep1 (W : Valuation τ sig (Elt F)) {r : Ref sig .tc} (h : r ∉ written1) :
    after hostOps1 W (Proc.devRef .tc r) = W (Proc.devRef .tc r) :=
  after_of_writes_sub hostOps1 W writes1 h

/-- The buffers stretch `hostOps1_1` writes. -/
abbrev written1_1 : List (Ref sig .tc) := [main_call1_cst, main_call1_v0, main_v47]
theorem writes1_1 : (hostOps1_1 : List (HloOp τ sig (Elt F))).Forall fun op => op.writes ⊆ (written1_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem keep1_1 (W : Valuation τ sig (Elt F)) {r : Ref sig .tc} (h : r ∉ written1_1) :
    after hostOps1_1 W (Proc.devRef .tc r) = W (Proc.devRef .tc r) :=
  after_of_writes_sub hostOps1_1 W writes1_1 h

/-- The buffers stretch `hostOps2` writes. -/
abbrev written2 : List (Ref sig .tc) := [main_c_9, main_v49, main_v50, main_c_10, main_v51, main_v52, main_v53, main_v54, main_v55, main_v56, main_v57, main_v58, main_cst_11, main_v59, main_v60, main_v61, main_v62, main_v63, main_v64]
theorem writes2 : (hostOps2 : List (HloOp τ sig (Elt F))).Forall fun op => op.writes ⊆ (written2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem keep2 (W : Valuation τ sig (Elt F)) {r : Ref sig .tc} (h : r ∉ written2) :
    after hostOps2 W (Proc.devRef .tc r) = W (Proc.devRef .tc r) :=
  after_of_writes_sub hostOps2 W writes2 h

end Cert.KernelIdeal.HostStretch

end
-- ==== Proof.RowsA.lean ====
/- The first layer's product X · W (X of 50000 × 384, W of 384 × 128), computed block by block, is the whole product.

   The grid has ten points. Point t holds rows 5000 t … 5000 t + 4999 of X, all of W, and writes rows
   5000 t … 5000 t + 4999 of the output (50000 × 128). Entry (r, c) of what point t writes is
   Σ_k X(5000 t + r, k) · W(k, c): it depends on row 5000 t + r of X and column c of W only, and it is entry
   (5000 t + r, c) of X · W. Row i of the output lies in the block of point i / 5000, so the ten blocks cover the
   array, which therefore ends holding X · W. The values are extended reals: narrowing the factors' format is the
   identity there and the accumulator starts at zero, so both sides are the same sum over k written with two
   indexings, and nothing is asked of the entries (no finiteness). -/
import proofs.«114819_j67396626809139_1_alg».proof.Proof.Gen.KernelIdeal.Frame
import proofs.«114819_j67396626809139_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Rows

open Idealize.ShloMosaic Idealize.ShloMosaic.TcCoe Idealize.SL.Sem
open Idealize.ShloMosaic.Pipeline (Dat)
open Cert.KernelIdeal Cert.KernelIdeal.Gen

/-- The offsets of an access to a whole block are zero on both axes. -/
theorem zeroOffsets : (![0, 0] : Fin 2 → Nat) = fun _ => 0 := funext fun a => by fin_cases a <;> rfl

/-! ## One entry of a block's product

Entry (r, c) of a 5000 × 128 block product is the sum over k of the left block at (r, k) times the right
array at (k, c). -/

/-- The left factor of term k of entry j = (r, c): position (r, k). -/
abbrev blockLeft (j : S5000x128.Idx) (k : Fin 384) : S5000x384.Idx := fun a => match a with
  | ⟨0, _⟩ => ⟨(j 0).val, (j 0).isLt⟩
  | ⟨1, _⟩ => ⟨k.val, k.isLt⟩
/-- The right factor of term k of entry j = (r, c): position (k, c). -/
abbrev blockRight (j : S5000x128.Idx) (k : Fin 384) : S384x128.Idx := fun a => match a with
  | ⟨0, _⟩ => ⟨k.val, k.isLt⟩
  | ⟨1, _⟩ => ⟨(j 1).val, (j 1).isLt⟩

/-- The left operand is read on the output entry's row … -/
theorem blockLeft_row (j : S5000x128.Idx) (q : dot_S5000x384_S384x128_S5000x128_1_0_0_1_n_n.contr.Idx) :
    (dot_S5000x384_S384x128_S5000x128_1_0_0_1_n_n.lhsIdx j q 0).val = (j 0).val := by
  unfold DotDims.lhsIdx
  rw [dif_neg (show ¬(0 : Fin S5000x384.rank) ∈ dot_S5000x384_S384x128_S5000x128_1_0_0_1_n_n.lhsBatch by decide), dif_pos (show (0 : Fin S5000x384.rank) ∈ dot_S5000x384_S384x128_S5000x128_1_0_0_1_n_n.lhsNonContracting by decide)]
  rfl
/-- … at the column the summation index names; -/
theorem blockLeft_col (j : S5000x128.Idx) (q : dot_S5000x384_S384x128_S5000x128_1_0_0_1_n_n.contr.Idx) :
    (dot_S5000x384_S384x128_S5000x128_1_0_0_1_n_n.lhsIdx j q 1).val = (q ⟨0, by decide⟩).val :=
  dot_S5000x384_S384x128_S5000x128_1_0_0_1_n_n.lhsIdx_val_of_single rfl j q
/-- the right operand at the row the summation index names … -/
theorem blockRight_row (j : S5000x128.Idx) (q : dot_S5000x384_S384x128_S5000x128_1_0_0_1_n_n.contr.Idx) :
    (dot_S5000x384_S384x128_S5000x128_1_0_0_1_n_n.rhsIdx j q 0).val = (q ⟨0, by decide⟩).val :=
  dot_S5000x384_S384x128_S5000x128_1_0_0_1_n_n.rhsIdx_val_of_single rfl j q
/-- … on the output entry's column. -/
theorem blockRight_col (j : S5000x128.Idx) (q : dot_S5000x384_S384x128_S5000x128_1_0_0_1_n_n.contr.Idx) :
    (dot_S5000x384_S384x128_S5000x128_1_0_0_1_n_n.rhsIdx j q 1).val = (j 1).val := by
  unfold DotDims.rhsIdx
  rw [dif_neg (show ¬(1 : Fin S384x128.rank) ∈ dot_S5000x384_S384x128_S5000x128_1_0_0_1_n_n.rhsBatch by decide), dif_pos (show (1 : Fin S384x128.rank) ∈ dot_S5000x384_S384x128_S5000x128_1_0_0_1_n_n.rhsNonContracting by decide)]
  rfl

/-- What a grid point computes from its two blocks, at entry j: the sum over k of the products of the factors.
    Over the extended reals the change of format of the factors is the identity and the accumulator is zero. -/
theorem blockProduct_apply (x : Vec Ideal S5000x384 .f32) (w : Vec Ideal S384x128 .f32) (j : S5000x128.Idx) :
    k0_pay1 (F := Ideal) x w j = ∑ k : Fin 384, x (blockLeft j k) * w (blockRight j k) := by
  unfold k0_pay1
  refine (Ideal.matmul_constant_zero_apply dot_S5000x384_S384x128_S5000x128_1_0_0_1_n_n none _ _ j).trans ?_
  rw [← Equiv.sum_comp (ValueIdx.contrEquiv1 dot_S5000x384_S384x128_S5000x128_1_0_0_1_n_n 384 rfl rfl).symm]
  refine Finset.sum_congr rfl fun k _ => ?_
  have hk := ValueIdx.contrEquiv1_symm_val dot_S5000x384_S384x128_S5000x128_1_0_0_1_n_n 384 rfl rfl k
  have el : dot_S5000x384_S384x128_S5000x128_1_0_0_1_n_n.lhsIdx j ((ValueIdx.contrEquiv1 dot_S5000x384_S384x128_S5000x128_1_0_0_1_n_n 384 rfl rfl).symm k) = blockLeft j k := funext fun a => Fin.ext (by
    match a with
    | ⟨0, _⟩ => exact blockLeft_row _ _
    | ⟨1, _⟩ => exact (blockLeft_col _ _).trans hk)
  have er : dot_S5000x384_S384x128_S5000x128_1_0_0_1_n_n.rhsIdx j ((ValueIdx.contrEquiv1 dot_S5000x384_S384x128_S5000x128_1_0_0_1_n_n 384 rfl rfl).symm k) = blockRight j k := funext fun a => Fin.ext (by
    match a with
    | ⟨0, _⟩ => exact (blockRight_row _ _).trans hk
    | ⟨1, _⟩ => exact blockRight_col _ _)
  rw [el, er]
  rfl

/-! ## One entry of the whole product

Entry (i, c) of the 50000 × 128 product is the sum over k of the left array at (i, k) times the right array
at (k, c). -/

/-- The left factor of term k of entry i = (r, c) of the whole product: position (r, k). -/
abbrev wholeLeft (i : S50000x128.Idx) (k : Fin 384) : S50000x384.Idx := fun a => match a with
  | ⟨0, _⟩ => ⟨(i 0).val, (i 0).isLt⟩
  | ⟨1, _⟩ => ⟨k.val, k.isLt⟩
/-- The right factor of term k of entry i = (r, c) of the whole product: position (k, c). -/
abbrev wholeRight (i : S50000x128.Idx) (k : Fin 384) : S384x128.Idx := fun a => match a with
  | ⟨0, _⟩ => ⟨k.val, k.isLt⟩
  | ⟨1, _⟩ => ⟨(i 1).val, (i 1).isLt⟩

/-- The left operand is read on the output entry's row … -/
theorem wholeLeft_row (i : S50000x128.Idx) (q : Cert.ReferenceIdeal.dot_S50000x384_S384x128_S50000x128_1_0_0_1_n_n.contr.Idx) :
    (Cert.ReferenceIdeal.dot_S50000x384_S384x128_S50000x128_1_0_0_1_n_n.lhsIdx i q 0).val = (i 0).val := by
  unfold DotDims.lhsIdx
  rw [dif_neg (show ¬(0 : Fin S50000x384.rank) ∈ Cert.ReferenceIdeal.dot_S50000x384_S384x128_S50000x128_1_0_0_1_n_n.lhsBatch by decide), dif_pos (show (0 : Fin S50000x384.rank) ∈ Cert.ReferenceIdeal.dot_S50000x384_S384x128_S50000x128_1_0_0_1_n_n.lhsNonContracting by decide)]
  rfl
/-- … at the column the summation index names; -/
theorem wholeLeft_col (i : S50000x128.Idx) (q : Cert.ReferenceIdeal.dot_S50000x384_S384x128_S50000x128_1_0_0_1_n_n.contr.Idx) :
    (Cert.ReferenceIdeal.dot_S50000x384_S384x128_S50000x128_1_0_0_1_n_n.lhsIdx i q 1).val = (q ⟨0, by decide⟩).val :=
  Cert.ReferenceIdeal.dot_S50000x384_S384x128_S50000x128_1_0_0_1_n_n.lhsIdx_val_of_single rfl i q
/-- the right operand at the row the summation index names … -/
theorem wholeRight_row (i : S50000x128.Idx) (q : Cert.ReferenceIdeal.dot_S50000x384_S384x128_S50000x128_1_0_0_1_n_n.contr.Idx) :
    (Cert.ReferenceIdeal.dot_S50000x384_S384x128_S50000x128_1_0_0_1_n_n.rhsIdx i q 0).val = (q ⟨0, by decide⟩).val :=
  Cert.ReferenceIdeal.dot_S50000x384_S384x128_S50000x128_1_0_0_1_n_n.rhsIdx_val_of_single rfl i q
/-- … on the output entry's column. -/
theorem wholeRight_col (i : S50000x128.Idx) (q : Cert.ReferenceIdeal.dot_S50000x384_S384x128_S50000x128_1_0_0_1_n_n.contr.Idx) :
    (Cert.ReferenceIdeal.dot_S50000x384_S384x128_S50000x128_1_0_0_1_n_n.rhsIdx i q 1).val = (i 1).val := by
  unfold DotDims.rhsIdx
  rw [dif_neg (show ¬(1 : Fin S384x128.rank) ∈ Cert.ReferenceIdeal.dot_S50000x384_S384x128_S50000x128_1_0_0_1_n_n.rhsBatch by decide), dif_pos (show (1 : Fin S384x128.rank) ∈ Cert.ReferenceIdeal.dot_S50000x384_S384x128_S50000x128_1_0_0_1_n_n.rhsNonContracting by decide)]
  rfl

/-- The whole product at entry i, over the extended reals: the sum over k of the products of the factors. -/
theorem wholeProduct_apply (X : (⟨S50000x384, .f32⟩ : BufTy).Contents (Elt Ideal)) (W : (⟨S384x128, .f32⟩ : BufTy).Contents (Elt Ideal)) (i : S50000x128.Idx) :
    Host.dotGeneral (F := Ideal) (φ₁ := .f32) (φ₂ := .f32) Cert.ReferenceIdeal.dot_S50000x384_S384x128_S50000x128_1_0_0_1_n_n none X W i
      = ∑ k : Fin 384, X (wholeLeft i k) * W (wholeRight i k) := by
  simp only [Host.dotGeneral]
  rw [Ideal.dotGeneral_apply, ← Equiv.sum_comp (ValueIdx.contrEquiv1 Cert.ReferenceIdeal.dot_S50000x384_S384x128_S50000x128_1_0_0_1_n_n 384 rfl rfl).symm]
  refine Finset.sum_congr rfl fun k _ => ?_
  have hk := ValueIdx.contrEquiv1_symm_val Cert.ReferenceIdeal.dot_S50000x384_S384x128_S50000x128_1_0_0_1_n_n 384 rfl rfl k
  have el : Cert.ReferenceIdeal.dot_S50000x384_S384x128_S50000x128_1_0_0_1_n_n.lhsIdx i ((ValueIdx.contrEquiv1 Cert.ReferenceIdeal.dot_S50000x384_S384x128_S50000x128_1_0_0_1_n_n 384 rfl rfl).symm k) = wholeLeft i k := funext fun a => Fin.ext (by
    match a with
    | ⟨0, _⟩ => exact wholeLeft_row _ _
    | ⟨1, _⟩ => exact (wholeLeft_col _ _).trans hk)
  have er : Cert.ReferenceIdeal.dot_S50000x384_S384x128_S50000x128_1_0_0_1_n_n.rhsIdx i ((ValueIdx.contrEquiv1 Cert.ReferenceIdeal.dot_S50000x384_S384x128_S50000x128_1_0_0_1_n_n 384 rfl rfl).symm k) = wholeRight i k := funext fun a => Fin.ext (by
    match a with
    | ⟨0, _⟩ => exact (wholeRight_row _ _).trans hk
    | ⟨1, _⟩ => exact wholeRight_col _ _)
  rw [el, er]

/-- An entry of a block's product is the entry of the whole product that reads the same row of left factors and
    the same column of right factors: the two sums agree term by term. -/
theorem blockEntry (x : Vec Ideal S5000x384 .f32) (w : Vec Ideal S384x128 .f32)
    (X : (⟨S50000x384, .f32⟩ : BufTy).Contents (Elt Ideal)) (W : (⟨S384x128, .f32⟩ : BufTy).Contents (Elt Ideal))
    (j : S5000x128.Idx) (i : S50000x128.Idx)
    (hx : ∀ k : Fin 384, x (blockLeft j k) = X (wholeLeft i k))
    (hw : ∀ k : Fin 384, w (blockRight j k) = W (wholeRight i k)) :
    k0_pay1 (F := Ideal) x w j
      = Host.dotGeneral (F := Ideal) (φ₁ := .f32) (φ₂ := .f32) Cert.ReferenceIdeal.dot_S50000x384_S384x128_S50000x128_1_0_0_1_n_n none X W i := by
  rw [blockProduct_apply, wholeProduct_apply]
  exact Finset.sum_congr rfl fun k _ => by rw [hx k, hw k]

/-! ## Blocks

Grid point t holds block (t, 0) of the left array and of the output — rows 5000 t … 5000 t + 4999, every
column — and block (0, 0) of the right array, which is all of it. -/

/-- The block indices of the three arrays at each of the ten grid points. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)

/-- Position (r, k) of point t's left block is position (5000 t + r, k) of the left array: the row of the
    output entry that (r, c) of point t's output block is. -/
theorem leftBlock_apply (t : Fin cfg0.N) (j : S5000x128.Idx) (k : Fin 384) :
    iblk0 (F := Ideal) V c 0 t (blockLeft j k)
      = V c (Pipeline.arrRef spec0 0) (wholeLeft (((cfg0.win 2).blk t).view.emb j) k) := by
  obtain ⟨e00, e01, -, -, e20, -⟩ := blockIndices t
  unfold iblk0
  rw [View.read_apply]
  refine congrArg (V c (Pipeline.arrRef spec0 0)) ?_
  funext a
  apply Fin.ext
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 384 + 1 * k.val = k.val; omega

/-- Position (k, c) of point t's right block is position (k, c) of the right array. -/
theorem rightBlock_apply (t : Fin cfg0.N) (j : S5000x128.Idx) (k : Fin 384) :
    iblk0 (F := Ideal) V c 1 t (blockRight j k)
      = V c (Pipeline.arrRef spec0 1) (wholeRight (((cfg0.win 2).blk t).view.emb j) k) := by
  obtain ⟨-, -, e10, e11, -, e21⟩ := blockIndices t
  unfold iblk0
  rw [View.read_apply]
  refine congrArg (V c (Pipeline.arrRef spec0 1)) ?_
  funext a
  apply Fin.ext
  match a with
  | ⟨0, _⟩ => show win0_1.index t (0 : Fin 2) * 384 + 1 * k.val = k.val; omega
  | ⟨1, _⟩ => show win0_1.index t (1 : Fin 2) * 128 + 1 * (j 1).val = win0_2.index t (1 : Fin 2) * 128 + 1 * (j 1).val; omega

/-- What point t writes back is block t of the whole product of the two arrays as the region finds them. -/
theorem flushed0 (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S50000x384_S384x128_S50000x128_1_0_0_1_n_n none
        (V c (Pipeline.arrRef spec0 0)) (V c (Pipeline.arrRef spec0 1))) := by
  show (cfg0.win 2).cut (grid0.coords t) ((dat0 V c).after 2 t) = _
  rw [after0_2]
  unfold out0_2
  rw [View.canon_unit_zero zeroOffsets]
  simp only [View.ld_unit_zero (S := S5000x384) zeroOffsets, View.ld_unit_zero (S := S384x128) zeroOffsets]
  funext j
  exact blockEntry (iblk0 V c 0 t) (iblk0 V c 1 t) (V c (Pipeline.arrRef spec0 0)) (V c (Pipeline.arrRef spec0 1)) j
    (((cfg0.win 2).blk t).view.emb j) (leftBlock_apply V c t j) (rightBlock_apply V c t j)

end

/-- An entry of the output array lies in point t's block when each coordinate lies in the block's range. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the output lies in the block of point r / 5000, which is written back: the ten blocks cover the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, e20, e21⟩ := blockIndices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0 leaves in its output array the whole product of its two input arrays as it found them. -/
theorem arr0 [Cert.KernelIdeal.Facts] [Cert.ReferenceIdeal.Facts]
    (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S50000x384_S384x128_S50000x128_1_0_0_1_n_n none
          (V c (Pipeline.arrRef spec0 0)) (V c (Pipeline.arrRef spec0 1)) :=
  (dat0 (F := Ideal) V c).arrAt_eq_of_cover 2 _ (fun t _ => flushed0 V c t) covered

end Cert.KernelIdeal.Rows

end
-- ==== Proof.RowsB.lean ====
/- The second layer's product H · W (H of 50000 × 128, W of 128 × 64), computed block by block, is the whole product.

   The grid has ten points. Point t holds rows 5000 t … 5000 t + 4999 of H, all of W, and writes rows
   5000 t … 5000 t + 4999 of the output (50000 × 64). Entry (r, c) of what point t writes is
   Σ_k H(5000 t + r, k) · W(k, c): it depends on row 5000 t + r of H and column c of W only, and it is entry
   (5000 t + r, c) of H · W. Row i of the output lies in the block of point i / 5000, so the ten blocks cover the
   array, which therefore ends holding H · W. The values are extended reals: reshaping the left block to its own
   shape and narrowing the factors' format are the identity there and the accumulator starts at zero, so both
   sides are the same sum over k written with two indexings, and nothing is asked of the entries (no finiteness). -/
import proofs.«114819_j67396626809139_1_alg».proof.Proof.Gen.KernelIdeal.Frame
import proofs.«114819_j67396626809139_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Rows

open Idealize.ShloMosaic Idealize.ShloMosaic.TcCoe Idealize.SL.Sem
open Idealize.ShloMosaic.Pipeline (Dat)
open Cert.KernelIdeal Cert.KernelIdeal.Gen

/-- The offsets of an access to a whole block are zero on both axes. -/
theorem zeroOffsetsB : (![0, 0] : Fin 2 → Nat) = fun _ => 0 := funext fun a => by fin_cases a <;> rfl

/-! ## One entry of a block's product

Entry (r, c) of a 5000 × 64 block product is the sum over k of the left block at (r, k) times the right
array at (k, c). -/

/-- The left factor of term k of entry j = (r, c): position (r, k). -/
abbrev blockLeftB (j : S5000x64.Idx) (k : Fin 128) : S5000x128.Idx := fun a => match a with
  | ⟨0, _⟩ => ⟨(j 0).val, (j 0).isLt⟩
  | ⟨1, _⟩ => ⟨k.val, k.isLt⟩
/-- The right factor of term k of entry j = (r, c): position (k, c). -/
abbrev blockRightB (j : S5000x64.Idx) (k : Fin 128) : S128x64.Idx := fun a => match a with
  | ⟨0, _⟩ => ⟨k.val, k.isLt⟩
  | ⟨1, _⟩ => ⟨(j 1).val, (j 1).isLt⟩

/-- The left operand is read on the output entry's row … -/
theorem blockLeft_rowB (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … at the column the summation index names; -/
theorem blockLeft_colB (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- the right operand at the row the summation index names … -/
theorem blockRight_rowB (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
/-- … on the output entry's column. -/
theorem blockRight_colB (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What a grid point computes from its two blocks, at entry j: the sum over k of the products of the factors.
    Over the extended reals the change of format of the factors is the identity and the accumulator is zero;
    the reshaping of the left block to its own shape is the identity too. -/
theorem blockProduct_applyB (x : Vec Ideal S5000x128 .f32) (w : Vec Ideal S128x64 .f32) (j : S5000x64.Idx) :
    k1_pay1 (F := Ideal) x w j = ∑ k : Fin 128, x (blockLeftB j k) * w (blockRightB j k) := by
  unfold k1_pay1
  rw [shapeCast_self]
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blockLeftB j k := funext fun a => Fin.ext (by
    match a with
    | ⟨0, _⟩ => exact blockLeft_rowB _ _
    | ⟨1, _⟩ => exact (blockLeft_colB _ _).trans hk)
  have er : dot_S5000x128_S128x64_S5000x64_1_0_0_1_n_n.rhsIdx j ((ValueIdx.contrEquiv1 dot_S5000x128_S128x64_S5000x64_1_0_0_1_n_n 128 rfl rfl).symm k) = blockRightB j k := funext fun a => Fin.ext (by
    match a with
    | ⟨0, _⟩ => exact (blockRight_rowB _ _).trans hk
    | ⟨1, _⟩ => exact blockRight_colB _ _)
  rw [el, er]
  rfl

/-! ## One entry of the whole product

Entry (i, c) of the 50000 × 64 product is the sum over k of the left array at (i, k) times the right array
at (k, c). -/

/-- The left factor of term k of entry i = (r, c) of the whole product: position (r, k). -/
abbrev wholeLeftB (i : S50000x64.Idx) (k : Fin 128) : S50000x128.Idx := fun a => match a with
  | ⟨0, _⟩ => ⟨(i 0).val, (i 0).isLt⟩
  | ⟨1, _⟩ => ⟨k.val, k.isLt⟩
/-- The right factor of term k of entry i = (r, c) of the whole product: position (k, c). -/
abbrev wholeRightB (i : S50000x64.Idx) (k : Fin 128) : S128x64.Idx := fun a => match a with
  | ⟨0, _⟩ => ⟨k.val, k.isLt⟩
  | ⟨1, _⟩ => ⟨(i 1).val, (i 1).isLt⟩

/-- The left operand is read on the output entry's row … -/
theorem wholeLeft_rowB (i : S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin S50000x128.rank) ∈ Cert.ReferenceIdeal.dot_S50000x128_S128x64_S50000x64_1_0_0_1_n_n.lhsBatch by decide), dif_pos (show (0 : Fin S50000x128.rank) ∈ Cert.ReferenceIdeal.dot_S50000x128_S128x64_S50000x64_1_0_0_1_n_n.lhsNonContracting by decide)]
  rfl
/-- … at the column the summation index names; -/
theorem wholeLeft_colB (i : S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
/-- the right operand at the row the summation index names … -/
theorem wholeRight_rowB (i : S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
/-- … on the output entry's column. -/
theorem wholeRight_colB (i : S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin S128x64.rank) ∈ Cert.ReferenceIdeal.dot_S50000x128_S128x64_S50000x64_1_0_0_1_n_n.rhsBatch by decide), dif_pos (show (1 : Fin S128x64.rank) ∈ Cert.ReferenceIdeal.dot_S50000x128_S128x64_S50000x64_1_0_0_1_n_n.rhsNonContracting by decide)]
  rfl

/-- The whole product at entry i, over the extended reals: the sum over k of the products of the factors. -/
theorem wholeProduct_applyB (X : (⟨S50000x128, .f32⟩ : BufTy).Contents (Elt Ideal)) (W : (⟨S128x64, .f32⟩ : BufTy).Contents (Elt Ideal)) (i : S50000x64.Idx) :
    Host.dotGeneral (F := Ideal) (φ₁ := .f32) (φ₂ := .f32) Cert.ReferenceIdeal.dot_S50000x128_S128x64_S50000x64_1_0_0_1_n_n none X W i
      = ∑ k : Fin 128, X (wholeLeftB i k) * W (wholeRightB i k) := by
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = wholeLeftB i k := funext fun a => Fin.ext (by
    match a with
    | ⟨0, _⟩ => exact wholeLeft_rowB _ _
    | ⟨1, _⟩ => exact (wholeLeft_colB _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = wholeRightB i k := funext fun a => Fin.ext (by
    match a with
    | ⟨0, _⟩ => exact (wholeRight_rowB _ _).trans hk
    | ⟨1, _⟩ => exact wholeRight_colB _ _)
  rw [el, er]

/-- An entry of a block's product is the entry of the whole product that reads the same row of left factors and
    the same column of right factors: the two sums agree term by term. -/
theorem blockEntryB (x : Vec Ideal S5000x128 .f32) (w : Vec Ideal S128x64 .f32)
    (X : (⟨S50000x128, .f32⟩ : BufTy).Contents (Elt Ideal)) (W : (⟨S128x64, .f32⟩ : BufTy).Contents (Elt Ideal))
    (j : S5000x64.Idx) (i : S50000x64.Idx)
    (hx : ∀ k : Fin 128, x (blockLeftB j k) = X (wholeLeftB i k))
    (hw : ∀ k : Fin 128, w (blockRightB j k) = W (wholeRightB i k)) :
    k1_pay1 (F := Ideal) x w j
      = Host.dotGeneral (F := Ideal) (φ₁ := .f32) (φ₂ := .f32) Cert.ReferenceIdeal.dot_S50000x128_S128x64_S50000x64_1_0_0_1_n_n none X W i := by
  rw [blockProduct_applyB, wholeProduct_applyB]
  exact Finset.sum_congr rfl fun k _ => by rw [hx k, hw k]

/-! ## Blocks

Grid point t holds block (t, 0) of the left array and of the output — rows 5000 t … 5000 t + 4999, every
column — and block (0, 0) of the right array, which is all of it. -/

/-- The block indices of the three arrays at each of the ten grid points. -/
theorem blockIndicesB : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b)) (c : Dev nD)

/-- Position (r, k) of point t's left block is position (5000 t + r, k) of the left array: the row of the
    output entry that (r, c) of point t's output block is. -/
theorem leftBlock_applyB (t : Fin cfg1.N) (j : S5000x64.Idx) (k : Fin 128) :
    iblk1 (F := Ideal) V c 0 t (blockLeftB j k)
      = V c (Pipeline.arrRef spec1 0) (wholeLeftB (((cfg1.win 2).blk t).view.emb j) k) := by
  obtain ⟨e00, e01, -, -, e20, -⟩ := blockIndicesB t
  unfold iblk1
  rw [View.read_apply]
  refine congrArg (V c (Pipeline.arrRef spec1 0)) ?_
  funext a
  apply Fin.ext
  match a with
  | ⟨0, _⟩ => show win1_0.index t (0 : Fin 2) * 5000 + 1 * (j 0).val = win1_2.index t (0 : Fin 2) * 5000 + 1 * (j 0).val; omega
  | ⟨1, _⟩ => show win1_0.index t (1 : Fin 2) * 128 + 1 * k.val = k.val; omega

/-- Position (k, c) of point t's right block is position (k, c) of the right array. -/
theorem rightBlock_applyB (t : Fin cfg1.N) (j : S5000x64.Idx) (k : Fin 128) :
    iblk1 (F := Ideal) V c 1 t (blockRightB j k)
      = V c (Pipeline.arrRef spec1 1) (wholeRightB (((cfg1.win 2).blk t).view.emb j) k) := by
  obtain ⟨-, -, e10, e11, -, e21⟩ := blockIndicesB t
  unfold iblk1
  rw [View.read_apply]
  refine congrArg (V c (Pipeline.arrRef spec1 1)) ?_
  funext a
  apply Fin.ext
  match a with
  | ⟨0, _⟩ => show win1_1.index t (0 : Fin 2) * 128 + 1 * k.val = k.val; omega
  | ⟨1, _⟩ => show win1_1.index t (1 : Fin 2) * 64 + 1 * (j 1).val = win1_2.index t (1 : Fin 2) * 64 + 1 * (j 1).val; omega

/-- What point t writes back is block t of the whole product of the two arrays as the region finds them. -/
theorem flushed1B (t : Fin cfg1.N) :
    (dat1 (F := Ideal) V c).flushed 2 t = ((cfg1.win 2).blk t).view.read (Elt Ideal)
      (Host.dotGeneral (F := Ideal) (φ₁ := .f32) (φ₂ := .f32) Cert.ReferenceIdeal.dot_S50000x128_S128x64_S50000x64_1_0_0_1_n_n none
        (V c (Pipeline.arrRef spec1 0)) (V c (Pipeline.arrRef spec1 1))) := by
  show (cfg1.win 2).cut (grid1.coords t) ((dat1 V c).after 2 t) = _
  rw [after1_2]
  unfold out1_2
  rw [View.canon_unit_zero zeroOffsetsB]
  simp only [View.ld_unit_zero (S := S5000x128) zeroOffsetsB, View.ld_unit_zero (S := S128x64) zeroOffsetsB]
  funext j
  exact blockEntryB (iblk1 V c 0 t) (iblk1 V c 1 t) (V c (Pipeline.arrRef spec1 0)) (V c (Pipeline.arrRef spec1 1)) j
    (((cfg1.win 2).blk t).view.emb j) (leftBlock_applyB V c t j) (rightBlock_applyB V c t j)

end

/-- An entry of the output array lies in point t's block when each coordinate lies in the block's range. -/
theorem mem_blockB (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Row r of the output lies in the block of point r / 5000, which is written back: the ten blocks cover the array. -/
theorem coveredB (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, e20, e21⟩ := blockIndicesB t
  refine ⟨t, flush1_2 t, ?_⟩
  rw [mem_blockB]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- Region 1 leaves in its output array the whole product of its two input arrays as it found them. -/
theorem arr1 [Cert.KernelIdeal.Facts] [Cert.ReferenceIdeal.Facts]
    (V : (c : Dev nD) → (b : Ref sig .tc) → Buf (Elt Ideal) ((c : Thread nD τ).loc b)) (c : Dev nD) :
    (dat1 (F := Ideal) V c).arrAt 2 cfg1.N
      = Host.dotGeneral (F := Ideal) (φ₁ := .f32) (φ₂ := .f32) Cert.ReferenceIdeal.dot_S50000x128_S128x64_S50000x64_1_0_0_1_n_n none
          (V c (Pipeline.arrRef spec1 0)) (V c (Pipeline.arrRef spec1 1)) :=
  (dat1 (F := Ideal) V c).arrAt_eq_of_cover 2 _ (fun t _ => flushed1B V c t) coveredB

end Cert.KernelIdeal.Rows

end
-- ==== Proof.KValue.lean ====
/-
  The idealized kernel's result buffer, read back through the program's segments to the launch memory.

  The run leaves the result buffer at the last stretch of host operations applied to what the second
  product leaves; that is the stretch before applied to what the first product leaves; and so on. Segment
  by segment: when the first product is entered the extended source and target words and the edge
  weights are those of the launch memory's edge list, and the five float arguments are untouched; the
  first product leaves `X · W1` (its ten row blocks are the whole product's); the next stretch turns it
  into the first layer's output, which, with `W2` untouched, the second product multiplies; the last
  stretch aggregates that product into the second layer's output. The words and weights are computed
  once and reach both layers unchanged, no later segment writing them. Altogether the result buffer ends
  at `net` of the six argument arrays. Stated over the extended reals, where the two products are sums.
-/
import proofs.«114819_j67396626809139_1_alg».proof.Proof.Gen.KernelIdeal.Frame
import proofs.«114819_j67396626809139_1_alg».proof.Proof.KHost
import proofs.«114819_j67396626809139_1_alg».proof.Proof.RowsA
import proofs.«114819_j67396626809139_1_alg».proof.Proof.RowsB

noncomputable section

namespace Cert.KernelIdeal.FoldValue

open Idealize.ShloMosaic Idealize.ShloMosaic.StableHlo Idealize.ShloMosaic.TcCoe Idealize.SL.Sem
open Cert.KernelIdeal Cert.KernelIdeal.Gen Cert.KernelIdeal.HostStretch

variable (m : (ℓ : Loc nD τ sig) → Buf (Elt Ideal) ℓ) (ρ : Dev nD → PrngReg) (c : Dev nD)

/-! ## When the first product is entered -/

/-- A buffer none of the first 40 host operations writes still holds its launch contents. -/
theorem entry1_keep {r : Ref sig .tc} (h0 : r ∉ written0) (h1 : r ∉ written0_1) (h2 : r ∉ written0_2) :
    W3 m ρ c (Proc.devRef .tc r) = W0 m ρ c (Proc.devRef .tc r) := by
  show after hostOps0_2 (after hostOps0_1 (after hostOps0 (W0 m ρ c))) (Proc.devRef .tc r) = _
  rw [keep0_2 _ h2, keep0_1 _ h1, keep0 _ h0]

theorem entry1_src : W3 m ρ c (Proc.devRef .tc main_v5) = (Cert.Gcn.srcWords (F := Ideal) (m ((c.tc : Thread nD τ).loc main_arg1))) := by
  show after hostOps0_2 (after hostOps0_1 (after hostOps0 (W0 m ρ c))) (Proc.devRef .tc main_v5) = _
  rw [keep0_2 _ (by decide), src_of]

theorem entry1_dst : W3 m ρ c (Proc.devRef .tc main_v6) = (Cert.Gcn.dstWords (F := Ideal) (m ((c.tc : Thread nD τ).loc main_arg1))) := by
  show after hostOps0_2 (after hostOps0_1 (after hostOps0 (W0 m ρ c))) (Proc.devRef .tc main_v6) = _
  rw [keep0_2 _ (by decide), dst_of]

theorem entry1_weights : W3 m ρ c (Proc.devRef .tc main_v29) = (Cert.Gcn.edgeNorm (F := Ideal) (Cert.Gcn.invSqrtDeg (F := Ideal) (Cert.Gcn.dstWords (F := Ideal) (m ((c.tc : Thread nD τ).loc main_arg1)))) (Cert.Gcn.srcWords (F := Ideal) (m ((c.tc : Thread nD τ).loc main_arg1))) (Cert.Gcn.dstWords (F := Ideal) (m ((c.tc : Thread nD τ).loc main_arg1)))) := by
  show after hostOps0_2 (after hostOps0_1 (after hostOps0 (W0 m ρ c))) (Proc.devRef .tc main_v29) = _
  rw [norm_of, invdeg_of, src_of, dst_of]

/-! ## Past the first product -/

/-- The first product's output array: the whole product of the launch memory's `X` and `W1`. -/
theorem exit1_product : W4 m ρ c (Proc.devRef .tc main_v30) = (Host.dotGeneral (F := Ideal) (φ₁ := .f32) (φ₂ := .f32) Cert.ReferenceIdeal.dot_S50000x384_S384x128_S50000x128_1_0_0_1_n_n none (m ((c.tc : Thread nD τ).loc main_arg0)) (m ((c.tc : Thread nD τ).loc main_arg2))) :=
  (W4_arr m ρ c 2).trans ((Cert.KernelIdeal.Rows.arr0 (V3 m ρ) c).trans (by
    rw [show V3 m ρ c (Pipeline.arrRef spec0 0) = (m ((c.tc : Thread nD τ).loc main_arg0)) from entry1_keep m ρ c (r := main_arg0) (by decide) (by decide) (by decide),
      show V3 m ρ c (Pipeline.arrRef spec0 1) = (m ((c.tc : Thread nD τ).loc main_arg2)) from entry1_keep m ρ c (r := main_arg2) (by decide) (by decide) (by decide)]))

/-- A buffer that is none of the first product's arrays and that the next 22 host operations do not write. -/
theorem entry2_keep {r : Ref sig .tc} (hA : ∀ w, Pipeline.arrRef spec0 w ≠ r) (h1 : r ∉ written1) (h11 : r ∉ written1_1) :
    W6 m ρ c (Proc.devRef .tc r) = W3 m ρ c (Proc.devRef .tc r) := by
  show after hostOps1_1 (after hostOps1 (W4 m ρ c)) (Proc.devRef .tc r) = _
  rw [keep1_1 _ h11, keep1 _ h1]
  exact W4_of_ne m ρ c r hA

/-- The first layer's output, as the second product finds it. -/
theorem entry2_layer : W6 m ρ c (Proc.devRef .tc main_v47) = (Cert.Gcn.layerRelu (F := Ideal) (Cert.Gcn.srcWords (F := Ideal) (m ((c.tc : Thread nD τ).loc main_arg1))) (Cert.Gcn.dstWords (F := Ideal) (m ((c.tc : Thread nD τ).loc main_arg1))) (Cert.Gcn.edgeNorm (F := Ideal) (Cert.Gcn.invSqrtDeg (F := Ideal) (Cert.Gcn.dstWords (F := Ideal) (m ((c.tc : Thread nD τ).loc main_arg1)))) (Cert.Gcn.srcWords (F := Ideal) (m ((c.tc : Thread nD τ).loc main_arg1))) (Cert.Gcn.dstWords (F := Ideal) (m ((c.tc : Thread nD τ).loc main_arg1)))) (m ((c.tc : Thread nD τ).loc main_arg3)) (Host.dotGeneral (F := Ideal) (φ₁ := .f32) (φ₂ := .f32) Cert.ReferenceIdeal.dot_S50000x384_S384x128_S50000x128_1_0_0_1_n_n none (m ((c.tc : Thread nD τ).loc main_arg0)) (m ((c.tc : Thread nD τ).loc main_arg2)))) := by
  show after hostOps1_1 (after hostOps1 (W4 m ρ c)) (Proc.devRef .tc main_v47) = _
  rw [relu_of, exit1_product,
    W4_of_ne m ρ c main_v5 (by decide), W4_of_ne m ρ c main_v6 (by decide), W4_of_ne m ρ c main_v29 (by decide),
    W4_of_ne m ρ c main_arg3 (by decide), entry1_src, entry1_dst, entry1_weights,
    entry1_keep m ρ c (r := main_arg3) (by decide) (by decide) (by decide)]

/-! ## Past the second product -/

/-- The second product's output array: the first layer's output times the launch memory's `W2`. -/
theorem exit2_product : W7 m ρ c (Proc.devRef .tc main_v48) = (Host.dotGeneral (F := Ideal) (φ₁ := .f32) (φ₂ := .f32) Cert.ReferenceIdeal.dot_S50000x128_S128x64_S50000x64_1_0_0_1_n_n none (Cert.Gcn.layerRelu (F := Ideal) (Cert.Gcn.srcWords (F := Ideal) (m ((c.tc : Thread nD τ).loc main_arg1))) (Cert.Gcn.dstWords (F := Ideal) (m ((c.tc : Thread nD τ).loc main_arg1))) (Cert.Gcn.edgeNorm (F := Ideal) (Cert.Gcn.invSqrtDeg (F := Ideal) (Cert.Gcn.dstWords (F := Ideal) (m ((c.tc : Thread nD τ).loc main_arg1)))) (Cert.Gcn.srcWords (F := Ideal) (m ((c.tc : Thread nD τ).loc main_arg1))) (Cert.Gcn.dstWords (F := Ideal) (m ((c.tc : Thread nD τ).loc main_arg1)))) (m ((c.tc : Thread nD τ).loc main_arg3)) (Host.dotGeneral (F := Ideal) (φ₁ := .f32) (φ₂ := .f32) Cert.ReferenceIdeal.dot_S50000x384_S384x128_S50000x128_1_0_0_1_n_n none (m ((c.tc : Thread nD τ).loc main_arg0)) (m ((c.tc : Thread nD τ).loc main_arg2)))) (m ((c.tc : Thread nD τ).loc main_arg4))) :=
  (W7_arr m ρ c 2).trans ((Cert.KernelIdeal.Rows.arr1 (V6 m ρ) c).trans (by
    rw [show V6 m ρ c (Pipeline.arrRef spec1 0) = (Cert.Gcn.layerRelu (F := Ideal) (Cert.Gcn.srcWords (F := Ideal) (m ((c.tc : Thread nD τ).loc main_arg1))) (Cert.Gcn.dstWords (F := Ideal) (m ((c.tc : Thread nD τ).loc main_arg1))) (Cert.Gcn.edgeNorm (F := Ideal) (Cert.Gcn.invSqrtDeg (F := Ideal) (Cert.Gcn.dstWords (F := Ideal) (m ((c.tc : Thread nD τ).loc main_arg1)))) (Cert.Gcn.srcWords (F := Ideal) (m ((c.tc : Thread nD τ).loc main_arg1))) (Cert.Gcn.dstWords (F := Ideal) (m ((c.tc : Thread nD τ).loc main_arg1)))) (m ((c.tc : Thread nD τ).loc main_arg3)) (Host.dotGeneral (F := Ideal) (φ₁ := .f32) (φ₂ := .f32) Cert.ReferenceIdeal.dot_S50000x384_S384x128_S50000x128_1_0_0_1_n_n none (m ((c.tc : Thread nD τ).loc main_arg0)) (m ((c.tc : Thread nD τ).loc main_arg2)))) from entry2_layer m ρ c,
      show V6 m ρ c (Pipeline.arrRef spec1 1) = (m ((c.tc : Thread nD τ).loc main_arg4)) from
        (entry2_keep m ρ c (r := main_arg4) (by decide) (by decide) (by decide)).trans (entry1_keep m ρ c (r := main_arg4) (by decide) (by decide) (by decide))]))

/-- A buffer neither product's arrays and no host operation between them writes. -/
theorem exit2_keep {r : Ref sig .tc} (hB : ∀ w, Pipeline.arrRef spec1 w ≠ r) (hA : ∀ w, Pipeline.arrRef spec0 w ≠ r)
    (h1 : r ∉ written1) (h11 : r ∉ written1_1) :
    W7 m ρ c (Proc.devRef .tc r) = W3 m ρ c (Proc.devRef .tc r) :=
  (W7_of_ne m ρ c r hB).trans (entry2_keep m ρ c hA h1 h11)

/-! ## The result -/

/-- The result buffer's final contents are the two-layer network of the launch memory's six arrays. -/
theorem result :
    W8 m ρ c (Proc.devRef .tc main_v64)
      = Cert.Gcn.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after hostOps2 (W7 m ρ c) (Proc.devRef .tc main_v64) = _
  rw [out_of, exit2_product,
    exit2_keep m ρ c (r := main_v5) (by decide) (by decide) (by decide) (by decide), exit2_keep m ρ c (r := main_v6) (by decide) (by decide) (by decide) (by decide),
    exit2_keep m ρ c (r := main_v29) (by decide) (by decide) (by decide) (by decide), exit2_keep m ρ c (r := main_arg5) (by decide) (by decide) (by decide) (by decide),
    entry1_src, entry1_dst, entry1_weights, entry1_keep m ρ c (r := main_arg5) (by decide) (by decide) (by decide)]
  rfl

end Cert.KernelIdeal.FoldValue

end
-- ==== Proof.lean ====
/-
  A two-layer graph convolution on 50000 nodes and 1600000 edges: the kernel against its reference.

  Both programs extend the edge list by one self loop per node, count each node's degree `d`, weight an
  edge from `s` to `t` by `d(s)^(-1/2) · d(t)^(-1/2)` (zero where a degree is zero), and compute
  `out = Agg (max (Agg (X · W1) + b1, 0) · W2) + b2`, where `Agg h` adds into row `t` the weighted row `s` of `h`
  for every extended edge. The host operations around the two matrix products are the same in both
  programs, operation for operation and literal for literal; the reference merely computes the extended
  edges and the weights a second time for the second layer, to the same values.

  The one difference is the product. The reference takes it whole. The kernel takes it in ten blocks of
  5000 rows, narrows both factors to a shorter float format first, and accumulates from zero. Over the
  extended reals narrowing is the identity and an entry of either product is the same sum over the
  inner index, so block `t` of the kernel's product is block `t` of the whole one, and the ten blocks cover
  the array (`Rows.arr0`, `Rows.arr1`). This is a reindexing of one sum: nothing is asked of the entries,
  so the precondition (finite float inputs) is never opened.

  `Net.net` states the common function on whole arrays; `HostRun.run` reads the reference's run back as it;
  `RunNamed.run_named` names the kernel's result buffer at the end of its run and `FoldValue.result` reads
  that back, segment by segment, as the same `net`. The idealization rewrote no operation, so the
  kernel's idealized text is its own text read over the extended reals.
-/
import proofs.«114819_j67396626809139_1_alg».proof.Defs
import proofs.«114819_j67396626809139_1_alg».proof.Proof.Gen.Kernel
import proofs.«114819_j67396626809139_1_alg».proof.Proof.Gen.Kernel.Skeleton
import proofs.«114819_j67396626809139_1_alg».proof.Proof.Gen.Kernel.Launch
import proofs.«114819_j67396626809139_1_alg».proof.Proof.Gen.Kernel.Points
import proofs.«114819_j67396626809139_1_alg».proof.Proof.Gen.Kernel.Frame
import proofs.«114819_j67396626809139_1_alg».proof.Proof.Gen.KernelIdeal
import proofs.«114819_j67396626809139_1_alg».proof.Proof.Gen.KernelIdeal.Skeleton
import proofs.«114819_j67396626809139_1_alg».proof.Proof.Gen.KernelIdeal.Launch
import proofs.«114819_j67396626809139_1_alg».proof.Proof.Gen.KernelIdeal.Points
import proofs.«114819_j67396626809139_1_alg».proof.Proof.Gen.KernelIdeal.Frame
import proofs.«114819_j67396626809139_1_alg».proof.Proof.Gen.ReferenceIdeal
import proofs.«114819_j67396626809139_1_alg».proof.Proof.Gen.Pre_finite_inputs
import proofs.«114819_j67396626809139_1_alg».proof.Proof.Net
import proofs.«114819_j67396626809139_1_alg».proof.Proof.RefRun
import proofs.«114819_j67396626809139_1_alg».proof.Proof.KRun
import proofs.«114819_j67396626809139_1_alg».proof.Proof.KValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- No operation was rewritten on the way to the extended reals. -/
theorem preserves : Cert.preserves_Kernel_KernelIdeal := trivial

/-- From memories agreeing on the six arguments both programs end with the two-layer network of those
    arguments in their result: the kernel by its run read back through its segments, the reference by its
    straight line read back, both at the one function `net`. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.FoldValue.result m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.HostRun.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
